-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x1024 : Shape := ⟨3, ![2048, 8, 1024]⟩
abbrev S_ : Shape := ⟨0, ![]⟩

class Facts : Prop where
  bcast_S_S2048x8x1024 : S_.BroadcastsInDim S2048x8x1024 (![] : Fin 0 → Fin S2048x8x1024.rank)
  reducesTo_S2048x8x1024_S_d0_1_2 : S2048x8x1024.ReducesTo [0, 1, 2] S_
  h_S_ : 0 < S_.numel

variable [Facts]

def fn {F : FTy → Type} [FloatOps F] (main_arg0 : FVec F S2048x8x1024 .f32) : IVec S_ 1 :=
  let main_v0 : FVec F S2048x8x1024 .f32 := Host.absf main_arg0
  let main_cst : FVec F S_ .f32 := constant S_ .f32 0x7F800000#32
  let main_v1 : FVec F S2048x8x1024 .f32 := broadcastInDim S2048x8x1024 ![] bcast_S_S2048x8x1024 main_cst
  let main_v2 : IVec S2048x8x1024 1 := cmpf .olt main_v0 main_v1
  let main_c : IVec S_ 1 := constantI S_ 1 1#1
  let main_v3 : IVec S_ 1 := (fun x v => Host.reduce IntOp.andi x v reducesTo_S2048x8x1024_S_d0_1_2 h_S_) main_v2 main_c
  main_v3
-- ==== Kernel.lean ====
abbrev S2048x8x1024 : Shape := ⟨3, ![2048, 8, 1024]⟩
abbrev S8x2048x1024 : Shape := ⟨3, ![8, 2048, 1024]⟩
abbrev S8x1x1024 : Shape := ⟨3, ![8, 1, 1024]⟩
abbrev S8x2048x2048 : Shape := ⟨3, ![8, 2048, 2048]⟩
abbrev S1x512x1024 : Shape := ⟨3, ![1, 512, 1024]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x2048 : Shape := ⟨2, ![1, 2048]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x1024 : Shape := ⟨2, ![1, 1024]⟩
abbrev S1024 : Shape := ⟨1, ![1024]⟩
abbrev S8x1024 : Shape := ⟨2, ![8, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8x1024, .f32⟩
  | .hbm, ⟨1, _⟩ => ⟨S8x2048x1024, .f32⟩
  | .hbm, ⟨2, _⟩ => ⟨S8x2048x1024, .bf16⟩
  | .hbm, ⟨3, _⟩ => ⟨S8x1x1024, .f32⟩
  | .hbm, ⟨4, _⟩ => ⟨S8x2048x2048, .f32⟩
  | .hbm, ⟨5, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_17 : BitVec 32 := 0#32
  let v31 : BitVec 1 := Scalar.cmpi .ne v30 c0_i32_17
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x8x1024_S8x2048x1024_1_0_2 : S2048x8x1024.Transposes [1, 0, 2] S8x2048x1024
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reduces_S512x2048_S2048 : S512x2048.Reduces [0] S2048
  shapeCasts_S2048_S1x2048 : S2048.ShapeCasts S1x2048
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  shapeCasts_S8x1x1024_S8x1024 : S8x1x1024.ShapeCasts S8x1024
  dot_S512x1024_S2048x1024_S512x2048_1_1_0_0_n_n_wf : DotDims.WF S512x1024 S2048x1024 S512x2048 [1] [1] [0] [0] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_v1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S2048x8x1024 : Shape := ⟨3, ![2048, 8, 1024]⟩
abbrev S8x2048x1024 : Shape := ⟨3, ![8, 2048, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S8x1024 : Shape := ⟨2, ![8, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S8x2048x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x1024, .f32⟩
  | .hbm, ⟨24, _⟩ => ⟨S_, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S2048x8x1024_S8x2048x1024_1_0_2 : S2048x8x1024.Transposes [1, 0, 2] S8x2048x1024
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x1024_d1 : S8x2048x1024.ReducesTo [1] S8x1024
  bcast_S_S8x1024 : S_.BroadcastsInDim S8x1024 (![] : Fin 0 → Fin S8x1024.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelSetup.lean ====
/-
  The self-attention kernel's grid is (batch b, query tile qi) = 8 × 4, run as 32 points t = 4·b + qi.  This module
  fixes what every later module is stated over: the contents of the device buffers when the kernel region is entered
  (after the transpose and the change of format on the host), @main as host lines, the region, one host line; the two
  branch conditions of the body as functions of the point — the accumulator is reset where qi = 0 and the pooled
  context row is stored where qi = 3 —; where the context window is idle and where it is written back; and names for
  the staging memrefs the body is called with.
-/
import proofs.«110505_j37864431681993_2_alg».proof.Proof.Gen.Kernel.Launch
import proofs.«110505_j37864431681993_2_alg».proof.Proof.Gen.Kernel.Skeleton
import proofs.«110505_j37864431681993_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers of core `c` when the region is entered: the launch contents after the two host lines
    (the transpose to batch-major, then the change of format). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two host lines, the region, and the reshape of the context: it reduces to the region continued by
    the reshape, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region do not write the argument. -/
theorem V_main_arg0 (c : Dev nD) : V m c main_arg0 = m ((c : Thread nD τ).loc main_arg0) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- `qi = 0`: the point resets the accumulator of column sums. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- `qi = 3`: the point stores the pooled context row. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Away from `qi = 3` the context window is idle (the body stores nothing into it) and is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-! ## The memrefs the body is called with -/

abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x2048 .f32 := win0_3.stage (cfg0.slots t 3)
abbrev hs3 (t : Fin cfg0.N) : (ms3 t).IsWhole := hstage0_3 ((cfg0.slots t 3).cast nbuf0_3)
/-- The accumulator of column sums: a scratch buffer of the kernel's own, carried from point to point. -/
abbrev accM : Memref sig .tc .vmem S1x2048 .f32 := Memref.whole cc0_scratch0

/-- What the launch hands the body besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Attn

end
-- ==== Proof.KernelRunReset.lean ====
/-
  The kernel body at a point with qi = 0, run once on any whole staging memrefs: it zeroes the accumulator, stores the
  softmax tile into the attention window's buffer, adds the tile's column sums to the accumulator, and leaves the
  context window's buffer as it found it.  What each buffer ends with is found as the list of the stores made into it.
-/
import proofs.«110505_j37864431681993_2_alg».proof.Proof.KernelSetup

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is reset and no context row is stored: the attention buffer's and the accumulator's
    stores, with the run from the inputs' buffers at `x0`, `x1`, the context buffer at `xi2` (handed back untouched),
    the attention buffer and the accumulator at anything. -/
noncomputable def runReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) :
    Σ' (L3 : List (View.Piece (Elt F) S1x512x2048 .f32)), { LS : List (View.Piece (Elt F) S1x2048 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Attn

end
-- ==== Proof.KernelRunMid.lean ====
/-
  The kernel body at a point with qi = 1 or 2: the softmax tile goes into the attention window's buffer, its column
  sums are added to what the accumulator held, the context window's buffer is left as found.
-/
import proofs.«110505_j37864431681993_2_alg».proof.Proof.KernelRunReset

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where neither branch is taken, from the accumulator at `xs` (what the point before left). -/
noncomputable def runMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) :
    Σ' (L3 : List (View.Piece (Elt F) S1x512x2048 .f32)), { LS : List (View.Piece (Elt F) S1x2048 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Attn

end
-- ==== Proof.KernelRunLast.lean ====
/-
  The kernel body at a point with qi = 3: as at qi = 1, 2, and then the accumulated column sums, scaled by 1/2048, are
  multiplied into the batch's rows and the resulting context row is stored into the context window's buffer.
-/
import proofs.«110505_j37864431681993_2_alg».proof.Proof.KernelRunMid

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the context row is stored, from the accumulator at `xs`; the context buffer at anything. -/
noncomputable def runLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) :
    Σ' (L2 : List (View.Piece (Elt F) S1x1x1024 .f32)) (L3 : List (View.Piece (Elt F) S1x512x2048 .f32)), { LS : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Attn

end
-- ==== Proof.KernelFrame.lean ====
/-
  What the kernel's buffers hold point by point, and the body's obligation to the pipeline.

  At a point t = 4·b + qi the attention window's buffer ends with the softmax tile of batch b's query rows
  512·qi … 512·qi + 511; the accumulator ends with the column sums of the tiles of batch b seen so far (reset at qi = 0);
  at qi = 3 the context window's buffer ends with the row (accumulator / 2048) · X_b.  The three cases of the body are run
  once each on symbolic buffers; here they are put in sequence: `outsAt` is the recursion over the points, the region
  invariant carries the accumulator's contents from a point to the next, and the proof data names what the pipeline
  writes back.  The batch-major array feeds two input windows (the query tile and the whole batch), so each holds half
  of the read share of it.
-/
import proofs.«110505_j37864431681993_2_alg».proof.Proof.KernelRunLast

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

abbrev VO2 : View sig .tc .vmem S1x1x1024 .f32 := (Memref.whole cc0_stg2_0 : Memref sig .tc .vmem S1x1x1024 .f32).view
abbrev VO3 : View sig .tc .vmem S1x512x2048 .f32 := (Memref.whole cc0_stg3_0 : Memref sig .tc .vmem S1x512x2048 .f32).view
abbrev VS : View sig .tc .vmem S1x2048 .f32 := (accM : Memref sig .tc .vmem S1x2048 .f32).view

theorem coverAttnReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) (y : S1x512x2048.Idx) :
    ∃ pc ∈ (runReset c i arg2 harg2 arg3 harg3 arg4 harg4 arg5 harg5 arg6 harg6 hc0 hc1 x0 x1).1, y ∈ pc.1.set :=
  View.cover_of_tiledL (runReset c i arg2 harg2 arg3 harg3 arg4 harg4 arg5 harg5 arg6 harg6 hc0 hc1 x0 x1).1 S1x512x2048.size (by sl_kernel_rfl) y
/-- The softmax tile as the reset case stores it. -/
def attnReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) : Vec F S1x512x2048 .f32 :=
  VO3.read (Elt F) (VO3.writes (Elt F) VO3.junk (runReset c i arg2 harg2 arg3 harg3 arg4 harg4 arg5 harg5 arg6 harg6 hc0 hc1 x0 x1).1)
theorem coverAccReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) (y : S1x2048.Idx) :
    ∃ pc ∈ (runReset c i arg2 harg2 arg3 harg3 arg4 harg4 arg5 harg5 arg6 harg6 hc0 hc1 x0 x1).2.1, y ∈ pc.1.set :=
  View.cover_of_tiledL (runReset c i arg2 harg2 arg3 harg3 arg4 harg4 arg5 harg5 arg6 harg6 hc0 hc1 x0 x1).2.1 S1x2048.size (by sl_kernel_rfl) y
/-- The accumulator after the reset case: zero plus the tile's column sums. -/
def accReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) : Vec F S1x2048 .f32 :=
  VS.read (Elt F) (VS.writes (Elt F) VS.junk (runReset c i arg2 harg2 arg3 harg3 arg4 harg4 arg5 harg5 arg6 harg6 hc0 hc1 x0 x1).2.1)

theorem coverAttnMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) (y : S1x512x2048.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x512x2048.size (by sl_kernel_rfl) y
def attnMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) : Vec F S1x512x2048 .f32 :=
  VO3.read (Elt F) (VO3.writes (Elt F) VO3.junk (runMid c i arg2 harg2 arg3 harg3 arg4 harg4 arg5 harg5 arg6 harg6 hc0 hc1 x0 x1 xs).1)
theorem coverAccMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) (y : S1x2048.Idx) :
    ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1x2048.size (by sl_kernel_rfl) y
def accMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) : Vec F S1x2048 .f32 :=
  VS.read (Elt F) (VS.writes (Elt F) VS.junk (runMid c i arg2 harg2 arg3 harg3 arg4 harg4 arg5 harg5 arg6 harg6 hc0 hc1 x0 x1 xs).2.1)

theorem coverCtxLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x1x1024.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x1x1024.size (by sl_kernel_rfl) y
/-- The pooled context row as the last case stores it. -/
def ctxLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x1x1024 .f32 :=
  VO2.read (Elt F) (VO2.writes (Elt F) VO2.junk (runLast c i arg2 harg2 arg3 harg3 arg4 harg4 arg5 harg5 arg6 harg6 hc0 hc1 x0 x1 xs).1)
theorem coverAttnLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x512x2048.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x512x2048.size (by sl_kernel_rfl) y
def attnLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x512x2048 .f32 :=
  VO3.read (Elt F) (VO3.writes (Elt F) VO3.junk (runLast c i arg2 harg2 arg3 harg3 arg4 harg4 arg5 harg5 arg6 harg6 hc0 hc1 x0 x1 xs).2.1)
theorem coverAccLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x2048.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1x2048.size (by sl_kernel_rfl) y
def accLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x2048 .f32 :=
  VS.read (Elt F) (VS.writes (Elt F) VS.junk (runLast c i arg2 harg2 arg3 harg3 arg4 harg4 arg5 harg5 arg6 harg6 hc0 hc1 x0 x1 xs).2.2.1)

/-- The context window's buffer where the body does not store into it: contents nothing reads. -/
def ctxIdle : Vec F S1x1x1024 .f32 := VO2.read (Elt F) VO2.junk

/-! ## The accumulation over the points -/

/-- After the body at position `n`: (context buffer, attention buffer, accumulator). The accumulator of a point with
    qi ≠ 0 is computed from the one the point before left. -/
def outsAt (c : Dev nD) : (n : ℕ) → n < cfg0.N → Vec F S1x1x1024 .f32 × Vec F S1x512x2048 .f32 × Vec F S1x2048 .f32
  | 0, hn => (ctxIdle,
      attnReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondReset ⟨0, hn⟩).mpr (Nat.zero_mod _)) (fun h => (fun h => by (try dsimp only at h); omega) ((hcondLast ⟨0, hn⟩).mp h)) (iblk m c 0 ⟨0, hn⟩) (iblk m c 1 ⟨0, hn⟩),
      accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondReset ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (ctxIdle,
          attnReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondReset ⟨n + 1, hn⟩).mpr h0) (fun h => h1 ((hcondLast ⟨n + 1, hn⟩).mp h)) (iblk m c 0 ⟨n + 1, hn⟩) (iblk m c 1 ⟨n + 1, hn⟩),
          accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondReset ⟨n + 1, hn⟩).mpr h0) (fun h => h1 ((hcondLast ⟨n + 1, hn⟩).mp h)) (iblk m c 0 ⟨n + 1, hn⟩) (iblk m c 1 ⟨n + 1, hn⟩))
    else
      if h1 : (n + 1) % 4 = 3 then
        (ctxLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
          attnLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
          accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2)
      else
        (ctxIdle,
          attnMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2,
          accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2)

theorem outsAt_reset (c : Dev nD) (t : Fin cfg0.N) (h0 : t.val % 4 = 0) (h1 : ¬t.val % 4 = 3) :
    outsAt m c t.val t.isLt = (ctxIdle,
      attnReset c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t),
      accReset c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = (ctxIdle,
      attnMid c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2,
      accMid c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = (
      ctxLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2,
      attnLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2,
      accLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- Before the first point the accumulator holds anything; before any other it holds what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The pipeline's proof data on core `c`: the arrays as the region finds them; after the body each input's buffer at
    its block, the context buffer and the attention buffer at `outsAt`; the invariant `PhiS`; the batch-major array's
    read share dealt to its two windows half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

/-- The query-tile window's buffer holds its block at every point (it is fetched at every point). -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The whole-batch window's buffer holds its block at every point: fetched where qi = 0, and left in place by the
    body at the three points after, where the block index has not moved. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves3 (c : Dev nD) (t : Fin cfg0.N) : (dats m 0 c).leavesExact 3 t = owns (c : Thread nD τ) (ms3 t) fullShare ((outsAt m c t.val t.isLt).2.1) := by
  unfold Dat.leavesExact; rw [live3 t, after3]
theorem leaves2_last (c : Dev nD) (t : Fin cfg0.N) (h : condLast (grid0.coords t)) :
    (dats m 0 c).leavesExact 2 t = owns (c : Thread nD τ) (ms2 t) fullShare ((outsAt m c t.val t.isLt).1) := by
  unfold Dat.leavesExact; rw [live2 t h, after2]

set_option maxHeartbeats 4800000 in
/-- The body at any point. The inputs' buffers hold their blocks; the point's residue mod 4 says which case runs; the
    invariant hands the accumulator over at what the point before left (at anything at the very first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 32 := lt_of_lt_of_eq t.isLt (show cfg0.N = 32 from N_0)
  by_cases h0 : t.val % 4 = 0
  · have h1 : ¬ t.val % 4 = 3 := by omega
    rw [Dat.leavesExact_idle (dats m 0 c) 2 t (idle2 t (fun h => h1 ((hcondLast t).mp h))) (noFlush2 t (fun h => h1 ((hcondLast t).mp h)))]
    rw [outsAt_reset m c t h0 h1]
    unfold attnReset accReset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h1 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccReset c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnReset c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h1 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccReset c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnReset c _ _ _ _ _ _ _ _ _ _ _ _ _ _ _)
  · have hz : t.val ≠ 0 := fun e => h0 (by rw [e])
    by_cases h1 : t.val % 4 = 3
    · rw [leaves2_last m c t ((hcondLast t).mpr h1)]
      rw [outsAt_last m c t h0 h1]
      unfold ctxLast attnLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondReset t).mp h)) ((hcondLast t).mpr h1) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverCtxLast c _ _ _ _ _ _ _ _ _ _ _ _ _ _ _ _)
      unfold owns; iexists _; isplitr
      swap; · iexact H3
      ipureintro; exact View.read_writes_of_cover _ _ _ _ _ (coverAttnLast c _ _ _ _ _ _ _ _ _ _ _ _ _ _ _ _)
    · rw [Dat.leavesExact_idle (dats m 0 c) 2 t (idle2 t (fun h => h1 ((hcondLast t).mp h))) (noFlush2 t (fun h => h1 ((hcondLast t).mp h)))]
      rw [outsAt_mid m c t h0 h1]
      unfold attnMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((hcondReset t).mp h)) (fun h => h1 ((hcondLast t).mp h)) (iblk m c 0 t) (iblk m c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnMid c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.Kernel.Attn

end
-- ==== Proof.KernelLaunch.lean ====
/-
  The run of @main: the two host lines, the kernel region, the reshape of the context.

  The region is entered with the batch-major array held whole; it is read through two windows (the query tile and the
  whole batch), so its read share is split in two halves, one per window, and both windows leave it as they found it.
  The reshape after the region reads only the context array and writes only the result, so it runs holding the context
  array and the buffers no window stages; the batch-major array and the attention array stay aside, as the region left
  them.  The run ends with every window's array at what the pipeline's write-backs made of it and every other device
  buffer at what the reshape leaves.
-/
import proofs.«110505_j37864431681993_2_alg».proof.Proof.KernelFrame

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (θ_run_region_pf_tail)

/-! ## The batch-major array dealt to its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers behind the four windows, whole at the entry contents, are the proof data's arrays at entry:
    the batch-major array's two halves go to the query-tile window and the whole-batch window. -/
theorem arrBufs_eq (c : Dev nD) (W : (b : Ref sig .tc) → Buf (Elt F) ((c : Thread nD τ).loc b)) :
    (Pipeline.arrBufs spec0 c W : sProp 𝕄)
      = iprop((((c : Thread nD τ).loc main_v1) ↦{fullShare} W main_v1) ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v1, main_v2_0, main_v2_1] (by decide) (by decide) _

/-- Dealt to the windows: the batch-major array's two halves to its two windows, the outputs' arrays whole. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [share0, share1, share2, share3]
  rw [(arr_whole0 0).set_eq_univ, (arr_whole0 2).set_eq_univ, (arr_whole0 3).set_eq_univ]
  iintro ⟨H1, H20, H21⟩
  ihave H := (pointsTo_share (PosShare.mem_left_op_right fullShare)).1 $$ H1
  icases H with ⟨Hl, Hr⟩
  isplitl [Hl]; · iexact Hl
  isplitl [Hr]; · iexact Hr
  isplitl [H20]; · iexact H20
  iexact H21

/-! ## The reshape after the region -/

/-- The context window alone: the one window whose array the line after the region reads. -/
abbrev winCtx : Fin 1 → Pipeline.WinSpec sig grid0.rank := fun _ => spec0 2
theorem winCtx_inj : Function.Injective (Pipeline.arrRef winCtx) := fun a b _ => Subsingleton.elim a b
/-- The two arrays the line neither reads nor writes. -/
abbrev asideRefs : Finset (Ref sig .tc) := {main_v1, main_v2_1}

/-- The device buffers at the region's exit, as far as the reshape sees them: the context array as the write-backs
    left it, the others as the region was entered. -/
def exitVal (c : Dev nD) : Valuation τ sig (Elt F) :=
  Pipeline.withArrays winCtx c (V0 m c) (fun _ => (dats m 0 c).arrAt 2 cfg0.N)
/-- And after the reshape. -/
def tailVal (c : Dev nD) (b : Ref sig .tc) : Buf (Elt F) ((c : Thread nD τ).loc b) :=
  StableHlo.after ([hostOps1] : List (List (HloOp τ sig (Elt F)))).flatten (exitVal m c) (Proc.devRef .tc b)

theorem restSet : Pipeline.restRefsP sig Pipeline.Prefetch.none winCtx \ asideRefs = Pipeline.restRefsP sig Pipeline.Prefetch.none spec0 := by decide

theorem tail_sub : ∀ ops ∈ ([hostOps1] : List (List (HloOp τ sig (Elt F)))), ∀ op ∈ ops,
    op.bufs ⊆ Pipeline.tailRefsBut sig Pipeline.Prefetch.none winCtx asideRefs := by
  intro ops hops op hop
  simp only [List.mem_cons, List.mem_nil_iff, or_false] at hops
  rcases hops with rfl
  refine Pipeline.sub_tailRefsBut Pipeline.Prefetch.none winCtx asideRefs op ((List.forall_iff_forall_mem.mp hostOps1_sub) op hop) (fun k => k.elim0) ?_
  simp only [hostOps1, List.mem_cons, List.mem_nil_iff, or_false] at hop
  rcases hop with rfl
  intro r hr
  simp only [asideRefs, Finset.mem_insert, Finset.mem_singleton] at hr
  rcases hr with rfl | rfl <;> simp only [StableHlo.reshape_bufs, Finset.mem_insert, Finset.mem_singleton, not_or] <;>
    exact ⟨StableHlo.devRef_ne_of_ne (by decide), StableHlo.devRef_ne_of_ne (by decide)⟩

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef winCtx w) ∉ op.writes := by
  intro ops hops op hop
  simp only [List.mem_cons, List.mem_nil_iff, or_false] at hops
  rcases hops with rfl
  simp only [hostOps1, List.mem_cons, List.mem_nil_iff, or_false] at hop
  rcases hop with rfl
  intro w; obtain rfl : w = 0 := Subsingleton.elim _ _
  simp only [StableHlo.reshape_writes, Finset.mem_singleton]; exact StableHlo.devRef_ne_of_ne (by decide)

/-- The context array, whole, in the two spellings (the pipeline's and the host line's). -/
theorem ctxPts (c : Dev nD) (X : Buf (Elt F) ((cfg0.win 2).arr.view.loc (c : Thread nD τ))) :
    (Pipeline.arrPts winCtx c (fun _ => X) : sProp 𝕄)
      = ((cfg0.win 2).arr.view.loc (c : Thread nD τ) ↦[(cfg0.win 2).arr.view.set]{(dats m 0 c).share 2} X) := by
  unfold Pipeline.arrPts
  rw [show (Finset.univ : Finset (Fin 1)) = {0} from rfl, bigSep_singleton, share2, (arr_whole0 2).set_eq_univ]

/-! ## The run -/

/-- What the run ends with: each window's array as the write-backs left it, every other device buffer as the reshape
    leaves it. -/
def AttnPost (r : PUnit × MemSt nD τ sig (Elt F)) : Prop :=
  ∀ c : Dev nD, (∀ w, r.2.mem ((spec0 w).arr.view.loc (c : Thread nD τ)) = (dats m 0 c).arrAt w cfg0.N)
    ∧ ∀ b ∈ Pipeline.restRefsP sig Pipeline.Prefetch.none spec0, r.2.mem ((c : Thread nD τ).loc b) = tailVal m c b

set_option backward.isDefEq.respectTransparency.types false in
set_option maxHeartbeats 2000000 in
theorem run_main : θ_run defs (onTc (τ := τ) (main (F := F))) (s₀ m ρ) (AttnPost m) := by
  classical
  exact θ_run_region_pf_tail (fun q => (cfgs q).toPCfg (Val := Elt F)) (fun q => (cfgs q).toPCfg_adm) (dats m) ()
    (cellOf_inj) (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailVal m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs_but (fun q => (cfgs q).toPCfg (Val := Elt F)) defs₀ Variants.none Pipeline.Prefetch.none winCtx winCtx_inj asideRefs c (V0 m c)
        (fun _ => (dats m 0 c).arrAt 2 cfg0.N) [hostOps1] tail_sub tail_fresh tail_keeps Q'
      rw [restSet, ctxPts m c] at h
      refine BIBase.Entails.trans ?_ h
      unfold Dat.arrays Pipeline.unscopedRestP
      rw [bigSep_W0]
      iintro ⟨Hk, Hb, ⟨Ha0, Ha1, Ha2, Ha3⟩, HZ⟩
      isplitl [Hk Ha0 Ha1 Ha3]
      · iintro ⟨Ha2, HZ'⟩
        iapply Hk
        isplitl [Ha0 Ha1 Ha2 Ha3]
        · isplitl [Ha0]; · iexact Ha0
          isplitl [Ha1]; · iexact Ha1
          isplitl [Ha2]; · iexact Ha2
          iexact Ha3
        iexact HZ'
      isplitl [Hb]; · iexact Hb
      isplitl [Ha2]; · iexact Ha2
      iexact HZ)
    (QY := fun c s => ∀ b ∈ Pipeline.restRefsP sig Pipeline.Prefetch.none spec0, s.mem ((c.tc : Thread nD τ).loc b) = tailVal m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailVal m c) s')
      isplitl [HU] <;> iassumption)
    (hQ := fun s h => by unfold AttnPost; exact fun c => ⟨(h c).1, (h c).2.2⟩)

/-! ## The frame -/

/-- The reshape does not write the argument, the region does not stage it, and the host lines before the region do
    not write it: after the run it holds what it held at launch. -/
theorem tailVal_arg0 (c : Dev nD) : tailVal m c main_arg0 = m ((c : Thread nD τ).loc main_arg0) := by
  unfold tailVal
  rw [StableHlo.after_of_forall_not_mem _ _ (fun op hop hw => ?_)]
  · unfold exitVal
    rw [Pipeline.withArrays_of_ne winCtx c (V0 m c) _ main_arg0 (fun w => by obtain rfl : w = 0 := Subsingleton.elim _ _; decide)]
    exact V_main_arg0 m c
  · simp only [hostOps1, List.flatten_cons, List.flatten_nil, List.append_nil, List.mem_cons, List.mem_nil_iff, _root_.or_false] at hop
    subst hop
    simp only [StableHlo.reshape_writes, Finset.mem_singleton] at hw
    exact absurd hw (StableHlo.devRef_ne_of_ne (by decide))

/-- Every weakly fair execution of @main terminates without a fault and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (tailVal_arg0 m c)) (run_main m ρ)

end Cert.Kernel.Attn

end
-- ==== Proof.KernelIdealSetup.lean ====
/-
  The self-attention kernel's grid is (batch b, query tile qi) = 8 × 4, run as 32 points t = 4·b + qi.  This module
  fixes what every later module is stated over: the contents of the device buffers when the kernel region is entered
  (after the transpose and the change of format on the host), @main as host lines, the region, one host line; the two
  branch conditions of the body as functions of the point — the accumulator is reset where qi = 0 and the pooled
  context row is stored where qi = 3 —; where the context window is idle and where it is written back; and names for
  the staging memrefs the body is called with.
-/
import proofs.«110505_j37864431681993_2_alg».proof.Proof.Gen.KernelIdeal.Launch
import proofs.«110505_j37864431681993_2_alg».proof.Proof.Gen.KernelIdeal.Skeleton
import proofs.«110505_j37864431681993_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers of core `c` when the region is entered: the launch contents after the two host lines
    (the transpose to batch-major, then the change of format). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two host lines, the region, and the reshape of the context: it reduces to the region continued by
    the reshape, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region do not write the argument. -/
theorem V_main_arg0 (c : Dev nD) : V m c main_arg0 = m ((c : Thread nD τ).loc main_arg0) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- `qi = 0`: the point resets the accumulator of column sums. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 4 = 0 :=
  (by decide +kernel : ∀ t : Fin grid0.N, condReset (grid0.coords t) ↔ t.val % 4 = 0)

/-- `qi = 3`: the point stores the pooled context row. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- Away from `qi = 3` the context window is idle (the body stores nothing into it) and is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-! ## The memrefs the body is called with -/

abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x2048 .f32 := win0_3.stage (cfg0.slots t 3)
abbrev hs3 (t : Fin cfg0.N) : (ms3 t).IsWhole := hstage0_3 ((cfg0.slots t 3).cast nbuf0_3)
/-- The accumulator of column sums: a scratch buffer of the kernel's own, carried from point to point. -/
abbrev accM : Memref sig .tc .vmem S1x2048 .f32 := Memref.whole cc0_scratch0

/-- What the launch hands the body besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Attn

end
-- ==== Proof.KernelIdealRunReset.lean ====
/-
  The kernel body at a point with qi = 0, run once on any whole staging memrefs: it zeroes the accumulator, stores the
  softmax tile into the attention window's buffer, adds the tile's column sums to the accumulator, and leaves the
  context window's buffer as it found it.  What each buffer ends with is found as the list of the stores made into it.
-/
import proofs.«110505_j37864431681993_2_alg».proof.Proof.KernelIdealSetup

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is reset and no context row is stored: the attention buffer's and the accumulator's
    stores, with the run from the inputs' buffers at `x0`, `x1`, the context buffer at `xi2` (handed back untouched),
    the attention buffer and the accumulator at anything. -/
noncomputable def runReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) :
    Σ' (L3 : List (View.Piece (Elt F) S1x512x2048 .f32)), { LS : List (View.Piece (Elt F) S1x2048 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Attn

end
-- ==== Proof.KernelIdealRunMid.lean ====
/-
  The kernel body at a point with qi = 1 or 2: the softmax tile goes into the attention window's buffer, its column
  sums are added to what the accumulator held, the context window's buffer is left as found.
-/
import proofs.«110505_j37864431681993_2_alg».proof.Proof.KernelIdealRunReset

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where neither branch is taken, from the accumulator at `xs` (what the point before left). -/
noncomputable def runMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) :
    Σ' (L3 : List (View.Piece (Elt F) S1x512x2048 .f32)), { LS : List (View.Piece (Elt F) S1x2048 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Attn

end
-- ==== Proof.KernelIdealRunLast.lean ====
/-
  The kernel body at a point with qi = 3: as at qi = 1, 2, and then the accumulated column sums, scaled by 1/2048, are
  multiplied into the batch's rows and the resulting context row is stored into the context window's buffer.
-/
import proofs.«110505_j37864431681993_2_alg».proof.Proof.KernelIdealRunMid

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the context row is stored, from the accumulator at `xs`; the context buffer at anything. -/
noncomputable def runLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) :
    Σ' (L2 : List (View.Piece (Elt F) S1x1x1024 .f32)) (L3 : List (View.Piece (Elt F) S1x512x2048 .f32)), { LS : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__attn_kernel i arg2 harg2 arg3 harg3 arg4 harg4 arg5 harg5 arg6 harg6) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Attn

end
-- ==== Proof.KernelIdealFrame.lean ====
/-
  What the kernel's buffers hold point by point, and the body's obligation to the pipeline.

  At a point t = 4·b + qi the attention window's buffer ends with the softmax tile of batch b's query rows
  512·qi … 512·qi + 511; the accumulator ends with the column sums of the tiles of batch b seen so far (reset at qi = 0);
  at qi = 3 the context window's buffer ends with the row (accumulator / 2048) · X_b.  The three cases of the body are run
  once each on symbolic buffers; here they are put in sequence: `outsAt` is the recursion over the points, the region
  invariant carries the accumulator's contents from a point to the next, and the proof data names what the pipeline
  writes back.  The batch-major array feeds two input windows (the query tile and the whole batch), so each holds half
  of the read share of it.
-/
import proofs.«110505_j37864431681993_2_alg».proof.Proof.KernelIdealRunLast

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

abbrev VO2 : View sig .tc .vmem S1x1x1024 .f32 := (Memref.whole cc0_stg2_0 : Memref sig .tc .vmem S1x1x1024 .f32).view
abbrev VO3 : View sig .tc .vmem S1x512x2048 .f32 := (Memref.whole cc0_stg3_0 : Memref sig .tc .vmem S1x512x2048 .f32).view
abbrev VS : View sig .tc .vmem S1x2048 .f32 := (accM : Memref sig .tc .vmem S1x2048 .f32).view

theorem coverAttnReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) (y : S1x512x2048.Idx) :
    ∃ pc ∈ (runReset c i arg2 harg2 arg3 harg3 arg4 harg4 arg5 harg5 arg6 harg6 hc0 hc1 x0 x1).1, y ∈ pc.1.set :=
  View.cover_of_tiledL (runReset c i arg2 harg2 arg3 harg3 arg4 harg4 arg5 harg5 arg6 harg6 hc0 hc1 x0 x1).1 S1x512x2048.size (by sl_kernel_rfl) y
/-- The softmax tile as the reset case stores it. -/
def attnReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) : Vec F S1x512x2048 .f32 :=
  VO3.read (Elt F) (VO3.writes (Elt F) VO3.junk (runReset c i arg2 harg2 arg3 harg3 arg4 harg4 arg5 harg5 arg6 harg6 hc0 hc1 x0 x1).1)
theorem coverAccReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) (y : S1x2048.Idx) :
    ∃ pc ∈ (runReset c i arg2 harg2 arg3 harg3 arg4 harg4 arg5 harg5 arg6 harg6 hc0 hc1 x0 x1).2.1, y ∈ pc.1.set :=
  View.cover_of_tiledL (runReset c i arg2 harg2 arg3 harg3 arg4 harg4 arg5 harg5 arg6 harg6 hc0 hc1 x0 x1).2.1 S1x2048.size (by sl_kernel_rfl) y
/-- The accumulator after the reset case: zero plus the tile's column sums. -/
def accReset (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) : Vec F S1x2048 .f32 :=
  VS.read (Elt F) (VS.writes (Elt F) VS.junk (runReset c i arg2 harg2 arg3 harg3 arg4 harg4 arg5 harg5 arg6 harg6 hc0 hc1 x0 x1).2.1)

theorem coverAttnMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) (y : S1x512x2048.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x512x2048.size (by sl_kernel_rfl) y
def attnMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) : Vec F S1x512x2048 .f32 :=
  VO3.read (Elt F) (VO3.writes (Elt F) VO3.junk (runMid c i arg2 harg2 arg3 harg3 arg4 harg4 arg5 harg5 arg6 harg6 hc0 hc1 x0 x1 xs).1)
theorem coverAccMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) (y : S1x2048.Idx) :
    ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1x2048.size (by sl_kernel_rfl) y
def accMid (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) : Vec F S1x2048 .f32 :=
  VS.read (Elt F) (VS.writes (Elt F) VS.junk (runMid c i arg2 harg2 arg3 harg3 arg4 harg4 arg5 harg5 arg6 harg6 hc0 hc1 x0 x1 xs).2.1)

theorem coverCtxLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x1x1024.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x1x1024.size (by sl_kernel_rfl) y
/-- The pooled context row as the last case stores it. -/
def ctxLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x1x1024 .f32 :=
  VO2.read (Elt F) (VO2.writes (Elt F) VO2.junk (runLast c i arg2 harg2 arg3 harg3 arg4 harg4 arg5 harg5 arg6 harg6 hc0 hc1 x0 x1 xs).1)
theorem coverAttnLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x512x2048.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x512x2048.size (by sl_kernel_rfl) y
def attnLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x512x2048 .f32 :=
  VO3.read (Elt F) (VO3.writes (Elt F) VO3.junk (runLast c i arg2 harg2 arg3 harg3 arg4 harg4 arg5 harg5 arg6 harg6 hc0 hc1 x0 x1 xs).2.1)
theorem coverAccLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) (y : S1x2048.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1x2048.size (by sl_kernel_rfl) y
def accLast (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) : Vec F S1x2048 .f32 :=
  VS.read (Elt F) (VS.writes (Elt F) VS.junk (runLast c i arg2 harg2 arg3 harg3 arg4 harg4 arg5 harg5 arg6 harg6 hc0 hc1 x0 x1 xs).2.2.1)

/-- The context window's buffer where the body does not store into it: contents nothing reads. -/
def ctxIdle : Vec F S1x1x1024 .f32 := VO2.read (Elt F) VO2.junk

/-! ## The accumulation over the points -/

/-- After the body at position `n`: (context buffer, attention buffer, accumulator). The accumulator of a point with
    qi ≠ 0 is computed from the one the point before left. -/
def outsAt (c : Dev nD) : (n : ℕ) → n < cfg0.N → Vec F S1x1x1024 .f32 × Vec F S1x512x2048 .f32 × Vec F S1x2048 .f32
  | 0, hn => (ctxIdle,
      attnReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondReset ⟨0, hn⟩).mpr (Nat.zero_mod _)) (fun h => (fun h => by (try dsimp only at h); omega) ((hcondLast ⟨0, hn⟩).mp h)) (iblk m c 0 ⟨0, hn⟩) (iblk m c 1 ⟨0, hn⟩),
      accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondReset ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (ctxIdle,
          attnReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondReset ⟨n + 1, hn⟩).mpr h0) (fun h => h1 ((hcondLast ⟨n + 1, hn⟩).mp h)) (iblk m c 0 ⟨n + 1, hn⟩) (iblk m c 1 ⟨n + 1, hn⟩),
          accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondReset ⟨n + 1, hn⟩).mpr h0) (fun h => h1 ((hcondLast ⟨n + 1, hn⟩).mp h)) (iblk m c 0 ⟨n + 1, hn⟩) (iblk m c 1 ⟨n + 1, hn⟩))
    else
      if h1 : (n + 1) % 4 = 3 then
        (ctxLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
          attnLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
          accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2)
      else
        (ctxIdle,
          attnMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2,
          accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondReset ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2)

theorem outsAt_reset (c : Dev nD) (t : Fin cfg0.N) (h0 : t.val % 4 = 0) (h1 : ¬t.val % 4 = 3) :
    outsAt m c t.val t.isLt = (ctxIdle,
      attnReset c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t),
      accReset c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = (ctxIdle,
      attnMid c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2,
      accMid c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = (
      ctxLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2,
      attnLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2,
      accLast c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- Before the first point the accumulator holds anything; before any other it holds what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The pipeline's proof data on core `c`: the arrays as the region finds them; after the body each input's buffer at
    its block, the context buffer and the attention buffer at `outsAt`; the invariant `PhiS`; the batch-major array's
    read share dealt to its two windows half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

/-- The query-tile window's buffer holds its block at every point (it is fetched at every point). -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The whole-batch window's buffer holds its block at every point: fetched where qi = 0, and left in place by the
    body at the three points after, where the block index has not moved. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves3 (c : Dev nD) (t : Fin cfg0.N) : (dats m 0 c).leavesExact 3 t = owns (c : Thread nD τ) (ms3 t) fullShare ((outsAt m c t.val t.isLt).2.1) := by
  unfold Dat.leavesExact; rw [live3 t, after3]
theorem leaves2_last (c : Dev nD) (t : Fin cfg0.N) (h : condLast (grid0.coords t)) :
    (dats m 0 c).leavesExact 2 t = owns (c : Thread nD τ) (ms2 t) fullShare ((outsAt m c t.val t.isLt).1) := by
  unfold Dat.leavesExact; rw [live2 t h, after2]

set_option maxHeartbeats 4800000 in
/-- The body at any point. The inputs' buffers hold their blocks; the point's residue mod 4 says which case runs; the
    invariant hands the accumulator over at what the point before left (at anything at the very first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves3]
  have hN : t.val < 32 := lt_of_lt_of_eq t.isLt (show cfg0.N = 32 from N_0)
  by_cases h0 : t.val % 4 = 0
  · have h1 : ¬ t.val % 4 = 3 := by omega
    rw [Dat.leavesExact_idle (dats m 0 c) 2 t (idle2 t (fun h => h1 ((hcondLast t).mp h))) (noFlush2 t (fun h => h1 ((hcondLast t).mp h)))]
    rw [outsAt_reset m c t h0 h1]
    unfold attnReset accReset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h1 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccReset c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnReset c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h1 ((hcondLast t).mp h)) (iblk m c 0 t) (iblk m c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccReset c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnReset c _ _ _ _ _ _ _ _ _ _ _ _ _ _ _)
  · have hz : t.val ≠ 0 := fun e => h0 (by rw [e])
    by_cases h1 : t.val % 4 = 3
    · rw [leaves2_last m c t ((hcondLast t).mpr h1)]
      rw [outsAt_last m c t h0 h1]
      unfold ctxLast attnLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondReset t).mp h)) ((hcondLast t).mpr h1) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverCtxLast c _ _ _ _ _ _ _ _ _ _ _ _ _ _ _ _)
      unfold owns; iexists _; isplitr
      swap; · iexact H3
      ipureintro; exact View.read_writes_of_cover _ _ _ _ _ (coverAttnLast c _ _ _ _ _ _ _ _ _ _ _ _ _ _ _ _)
    · rw [Dat.leavesExact_idle (dats m 0 c) 2 t (idle2 t (fun h => h1 ((hcondLast t).mp h))) (noFlush2 t (fun h => h1 ((hcondLast t).mp h)))]
      rw [outsAt_mid m c t h0 h1]
      unfold attnMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((hcondReset t).mp h)) (fun h => h1 ((hcondLast t).mp h)) (iblk m c 0 t) (iblk m c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverAttnMid c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.KernelIdeal.Attn

end
-- ==== Proof.KernelIdealLaunch.lean ====
/-
  The run of @main: the two host lines, the kernel region, the reshape of the context.

  The region is entered with the batch-major array held whole; it is read through two windows (the query tile and the
  whole batch), so its read share is split in two halves, one per window, and both windows leave it as they found it.
  The reshape after the region reads only the context array and writes only the result, so it runs holding the context
  array and the buffers no window stages; the batch-major array and the attention array stay aside, as the region left
  them.  The run ends with every window's array at what the pipeline's write-backs made of it and every other device
  buffer at what the reshape leaves.
-/
import proofs.«110505_j37864431681993_2_alg».proof.Proof.KernelIdealFrame

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (θ_run_region_pf_tail)

/-! ## The batch-major array dealt to its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers behind the four windows, whole at the entry contents, are the proof data's arrays at entry:
    the batch-major array's two halves go to the query-tile window and the whole-batch window. -/
theorem arrBufs_eq (c : Dev nD) (W : (b : Ref sig .tc) → Buf (Elt F) ((c : Thread nD τ).loc b)) :
    (Pipeline.arrBufs spec0 c W : sProp 𝕄)
      = iprop((((c : Thread nD τ).loc main_v1) ↦{fullShare} W main_v1) ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v1, main_v2_0, main_v2_1] (by decide) (by decide) _

/-- Dealt to the windows: the batch-major array's two halves to its two windows, the outputs' arrays whole. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [share0, share1, share2, share3]
  rw [(arr_whole0 0).set_eq_univ, (arr_whole0 2).set_eq_univ, (arr_whole0 3).set_eq_univ]
  iintro ⟨H1, H20, H21⟩
  ihave H := (pointsTo_share (PosShare.mem_left_op_right fullShare)).1 $$ H1
  icases H with ⟨Hl, Hr⟩
  isplitl [Hl]; · iexact Hl
  isplitl [Hr]; · iexact Hr
  isplitl [H20]; · iexact H20
  iexact H21

/-! ## The reshape after the region -/

/-- The context window alone: the one window whose array the line after the region reads. -/
abbrev winCtx : Fin 1 → Pipeline.WinSpec sig grid0.rank := fun _ => spec0 2
theorem winCtx_inj : Function.Injective (Pipeline.arrRef winCtx) := fun a b _ => Subsingleton.elim a b
/-- The two arrays the line neither reads nor writes. -/
abbrev asideRefs : Finset (Ref sig .tc) := {main_v1, main_v2_1}

/-- The device buffers at the region's exit, as far as the reshape sees them: the context array as the write-backs
    left it, the others as the region was entered. -/
def exitVal (c : Dev nD) : Valuation τ sig (Elt F) :=
  Pipeline.withArrays winCtx c (V0 m c) (fun _ => (dats m 0 c).arrAt 2 cfg0.N)
/-- And after the reshape. -/
def tailVal (c : Dev nD) (b : Ref sig .tc) : Buf (Elt F) ((c : Thread nD τ).loc b) :=
  StableHlo.after ([hostOps1] : List (List (HloOp τ sig (Elt F)))).flatten (exitVal m c) (Proc.devRef .tc b)

theorem restSet : Pipeline.restRefsP sig Pipeline.Prefetch.none winCtx \ asideRefs = Pipeline.restRefsP sig Pipeline.Prefetch.none spec0 := by decide

theorem tail_sub : ∀ ops ∈ ([hostOps1] : List (List (HloOp τ sig (Elt F)))), ∀ op ∈ ops,
    op.bufs ⊆ Pipeline.tailRefsBut sig Pipeline.Prefetch.none winCtx asideRefs := by
  intro ops hops op hop
  simp only [List.mem_cons, List.mem_nil_iff, or_false] at hops
  rcases hops with rfl
  refine Pipeline.sub_tailRefsBut Pipeline.Prefetch.none winCtx asideRefs op ((List.forall_iff_forall_mem.mp hostOps1_sub) op hop) (fun k => k.elim0) ?_
  simp only [hostOps1, List.mem_cons, List.mem_nil_iff, or_false] at hop
  rcases hop with rfl
  intro r hr
  simp only [asideRefs, Finset.mem_insert, Finset.mem_singleton] at hr
  rcases hr with rfl | rfl <;> simp only [StableHlo.reshape_bufs, Finset.mem_insert, Finset.mem_singleton, not_or] <;>
    exact ⟨StableHlo.devRef_ne_of_ne (by decide), StableHlo.devRef_ne_of_ne (by decide)⟩

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef winCtx w) ∉ op.writes := by
  intro ops hops op hop
  simp only [List.mem_cons, List.mem_nil_iff, or_false] at hops
  rcases hops with rfl
  simp only [hostOps1, List.mem_cons, List.mem_nil_iff, or_false] at hop
  rcases hop with rfl
  intro w; obtain rfl : w = 0 := Subsingleton.elim _ _
  simp only [StableHlo.reshape_writes, Finset.mem_singleton]; exact StableHlo.devRef_ne_of_ne (by decide)

/-- The context array, whole, in the two spellings (the pipeline's and the host line's). -/
theorem ctxPts (c : Dev nD) (X : Buf (Elt F) ((cfg0.win 2).arr.view.loc (c : Thread nD τ))) :
    (Pipeline.arrPts winCtx c (fun _ => X) : sProp 𝕄)
      = ((cfg0.win 2).arr.view.loc (c : Thread nD τ) ↦[(cfg0.win 2).arr.view.set]{(dats m 0 c).share 2} X) := by
  unfold Pipeline.arrPts
  rw [show (Finset.univ : Finset (Fin 1)) = {0} from rfl, bigSep_singleton, share2, (arr_whole0 2).set_eq_univ]

/-! ## The run -/

/-- What the run ends with: each window's array as the write-backs left it, every other device buffer as the reshape
    leaves it. -/
def AttnPost (r : PUnit × MemSt nD τ sig (Elt F)) : Prop :=
  ∀ c : Dev nD, (∀ w, r.2.mem ((spec0 w).arr.view.loc (c : Thread nD τ)) = (dats m 0 c).arrAt w cfg0.N)
    ∧ ∀ b ∈ Pipeline.restRefsP sig Pipeline.Prefetch.none spec0, r.2.mem ((c : Thread nD τ).loc b) = tailVal m c b

set_option backward.isDefEq.respectTransparency.types false in
set_option maxHeartbeats 2000000 in
theorem run_main : θ_run defs (onTc (τ := τ) (main (F := F))) (s₀ m ρ) (AttnPost m) := by
  classical
  exact θ_run_region_pf_tail (fun q => (cfgs q).toPCfg (Val := Elt F)) (fun q => (cfgs q).toPCfg_adm) (dats m) ()
    (cellOf_inj) (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailVal m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs_but (fun q => (cfgs q).toPCfg (Val := Elt F)) defs₀ Variants.none Pipeline.Prefetch.none winCtx winCtx_inj asideRefs c (V0 m c)
        (fun _ => (dats m 0 c).arrAt 2 cfg0.N) [hostOps1] tail_sub tail_fresh tail_keeps Q'
      rw [restSet, ctxPts m c] at h
      refine BIBase.Entails.trans ?_ h
      unfold Dat.arrays Pipeline.unscopedRestP
      rw [bigSep_W0]
      iintro ⟨Hk, Hb, ⟨Ha0, Ha1, Ha2, Ha3⟩, HZ⟩
      isplitl [Hk Ha0 Ha1 Ha3]
      · iintro ⟨Ha2, HZ'⟩
        iapply Hk
        isplitl [Ha0 Ha1 Ha2 Ha3]
        · isplitl [Ha0]; · iexact Ha0
          isplitl [Ha1]; · iexact Ha1
          isplitl [Ha2]; · iexact Ha2
          iexact Ha3
        iexact HZ'
      isplitl [Hb]; · iexact Hb
      isplitl [Ha2]; · iexact Ha2
      iexact HZ)
    (QY := fun c s => ∀ b ∈ Pipeline.restRefsP sig Pipeline.Prefetch.none spec0, s.mem ((c.tc : Thread nD τ).loc b) = tailVal m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailVal m c) s')
      isplitl [HU] <;> iassumption)
    (hQ := fun s h => by unfold AttnPost; exact fun c => ⟨(h c).1, (h c).2.2⟩)

/-! ## The frame -/

/-- The reshape does not write the argument, the region does not stage it, and the host lines before the region do
    not write it: after the run it holds what it held at launch. -/
theorem tailVal_arg0 (c : Dev nD) : tailVal m c main_arg0 = m ((c : Thread nD τ).loc main_arg0) := by
  unfold tailVal
  rw [StableHlo.after_of_forall_not_mem _ _ (fun op hop hw => ?_)]
  · unfold exitVal
    rw [Pipeline.withArrays_of_ne winCtx c (V0 m c) _ main_arg0 (fun w => by obtain rfl : w = 0 := Subsingleton.elim _ _; decide)]
    exact V_main_arg0 m c
  · simp only [hostOps1, List.flatten_cons, List.flatten_nil, List.append_nil, List.mem_cons, List.mem_nil_iff, _root_.or_false] at hop
    subst hop
    simp only [StableHlo.reshape_writes, Finset.mem_singleton] at hw
    exact absurd hw (StableHlo.devRef_ne_of_ne (by decide))

/-- Every weakly fair execution of @main terminates without a fault and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (tailVal_arg0 m c)) (run_main m ρ)

end Cert.KernelIdeal.Attn

end
-- ==== Proof.KernelIdealPieces.lean ====
/-
  What the three cases of the body leave in each buffer, in terms of the body's arithmetic: every store of the body
  covers its whole buffer, so a buffer ends with the value last stored into it, computed from the blocks the loads read —
  and a load of the accumulator after a store into it reads what was stored.
-/
import proofs.«110505_j37864431681993_2_alg».proof.Proof.KernelIdealFrame
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem accReset_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) :
    accReset c i arg2 harg2 arg3 harg3 arg4 harg4 arg5 harg5 arg6 harg6 hc0 hc1 x0 x1 = k0_pay5 x0 x1 (k0_pay1 (F := F)) := by
  unfold accReset
  rw [View.read_writes_eq_canon _ _ _ (coverAccReset c i arg2 harg2 arg3 harg3 arg4 harg4 arg5 harg5 arg6 harg6 hc0 hc1 x0 x1)]
  unfold runReset; dsimp only; sl_unfold_words
  rw [View.canon_cons_unit_zero hz2]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem attnReset_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : condReset i) (hc1 : ¬condLast i)
    (x0 : Vec F S1x512x1024 .bf16) (x1 : Vec F S1x2048x1024 .bf16) :
    attnReset c i arg2 harg2 arg3 harg3 arg4 harg4 arg5 harg5 arg6 harg6 hc0 hc1 x0 x1 = k0_pay4 x0 x1 := by
  unfold attnReset
  rw [View.read_writes_eq_canon _ _ _ (coverAttnReset c i arg2 harg2 arg3 harg3 arg4 harg4 arg5 harg5 arg6 harg6 hc0 hc1 x0 x1)]
  unfold runReset; dsimp only; sl_unfold_words
  rw [View.canon_cons_unit_zero hz3]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem accMid_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) :
    accMid c i arg2 harg2 arg3 harg3 arg4 harg4 arg5 harg5 arg6 harg6 hc0 hc1 x0 x1 xs = k0_pay5 x0 x1 xs := by
  unfold accMid
  rw [View.read_writes_eq_canon _ _ _ (coverAccMid c i arg2 harg2 arg3 harg3 arg4 harg4 arg5 harg5 arg6 harg6 hc0 hc1 x0 x1 xs)]
  unfold runMid; dsimp only; sl_unfold_words
  rw [View.canon_cons_unit_zero hz2]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem attnMid_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : ¬condLast i)
    (x0 : Vec F S1x512x1024 .bf16) (x1 : Vec F S1x2048x1024 .bf16) (xs : Vec F S1x2048 .f32) :
    attnMid c i arg2 harg2 arg3 harg3 arg4 harg4 arg5 harg5 arg6 harg6 hc0 hc1 x0 x1 xs = k0_pay4 x0 x1 := by
  unfold attnMid
  rw [View.read_writes_eq_canon _ _ _ (coverAttnMid c i arg2 harg2 arg3 harg3 arg4 harg4 arg5 harg5 arg6 harg6 hc0 hc1 x0 x1 xs)]
  unfold runMid; dsimp only; sl_unfold_words
  rw [View.canon_cons_unit_zero hz3]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem accLast_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) :
    accLast c i arg2 harg2 arg3 harg3 arg4 harg4 arg5 harg5 arg6 harg6 hc0 hc1 x0 x1 xs = k0_pay5 x0 x1 xs := by
  unfold accLast
  rw [View.read_writes_eq_canon _ _ _ (coverAccLast c i arg2 harg2 arg3 harg3 arg4 harg4 arg5 harg5 arg6 harg6 hc0 hc1 x0 x1 xs)]
  unfold runLast; dsimp only; sl_unfold_words
  rw [View.canon_cons_unit_zero hz2]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem attnLast_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) :
    attnLast c i arg2 harg2 arg3 harg3 arg4 harg4 arg5 harg5 arg6 harg6 hc0 hc1 x0 x1 xs = k0_pay4 x0 x1 := by
  unfold attnLast
  rw [View.read_writes_eq_canon _ _ _ (coverAttnLast c i arg2 harg2 arg3 harg3 arg4 harg4 arg5 harg5 arg6 harg6 hc0 hc1 x0 x1 xs)]
  unfold runLast; dsimp only; sl_unfold_words
  rw [View.canon_cons_unit_zero hz3]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

theorem ctxLast_eq (c : Dev nD) (i : grid0.Coords) (arg2 : Memref sig .tc .vmem S1x512x1024 .bf16) (harg2 : arg2.IsWhole) (arg3 : Memref sig .tc .vmem S1x2048x1024 .bf16) (harg3 : arg3.IsWhole) (arg4 : Memref sig .tc .vmem S1x1x1024 .f32) (harg4 : arg4.IsWhole) (arg5 : Memref sig .tc .vmem S1x512x2048 .f32) (harg5 : arg5.IsWhole) (arg6 : Memref sig .tc .vmem S1x2048 .f32) (harg6 : arg6.IsWhole) (hc0 : ¬condReset i) (hc1 : condLast i)
    (x0 : Vec F S1x512x1024 .bf16) (x1 : Vec F S1x2048x1024 .bf16) (xs : Vec F S1x2048 .f32) :
    ctxLast c i arg2 harg2 arg3 harg3 arg4 harg4 arg5 harg5 arg6 harg6 hc0 hc1 x0 x1 xs = k0_pay6 x1 (k0_pay5 x0 x1 xs) := by
  unfold ctxLast
  rw [View.read_writes_eq_canon _ _ _ (coverCtxLast c i arg2 harg2 arg3 harg3 arg4 harg4 arg5 harg5 arg6 harg6 hc0 hc1 x0 x1 xs)]
  unfold runLast; dsimp only; sl_unfold_words
  rw [View.canon_cons_unit_zero hz3]
  simp only [View.readAt_eq_ld, harg2.read_unread, harg3.read_unread, harg6.read_unread, View.ld_unit_zero (S := S1x512x1024) hz3,
    View.ld_unit_zero (S := S1x2048x1024) hz3, View.ld_unit_zero (S := S1x2048) hz2]
  try rw [View.readCov_unit_zero (S := S1x2048) arg6.view hz2]

end Cert.KernelIdeal.Attn

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.AttnSpec.lean ====
/-
  Self-attention pooled over the queries, as functions on the extended reals.

  For X : [2048, 8, 1024] (sequence, batch, feature) and a batch b:
    score(q, k)  = (Σ_h X(q,b,h) · X(k,b,h)) · (1/32)
    weight(q, k) = exp(score(q,k) − max_k' score(q,k')) / Σ_k' exp(score(q,k') − max_k'' score(q,k''))
  and the pooled context at feature h in two arrangements:
    pooledByColumns = Σ_k ((Σ over the four query tiles of the column sums of weight(·, k)) · (1/2048)) · X(k,b,h)
    pooledByRows    = (Σ_q Σ_k weight(q,k) · X(k,b,h)) / 2048.
  When every entry of X is a real number, every score is real, the row maximum is real, the exponentials are positive
  reals and so is their sum, hence every weight is a real number; the two arrangements are then equal by exchanging the
  two finite sums and moving the constant factor, which is valid in the reals (on the extended reals it would fail at
  infinities, which is why finiteness is used).
-/
import Idealize.ShloMosaic.PureOps.Ideal
import Idealize.ShloMosaic.PureOps.Ideal.Laws
import Mathlib.Algebra.BigOperators.Fin
import Mathlib.Data.Finset.Fold

noncomputable section

open scoped BigOperators

namespace Cert.AttnSpec

open Idealize.ShloMosaic

/-! ## The float words the two programs spell -/

theorem w_zero : Ideal.ofBits .f32 0x00000000#32 = 0 := by
  simp [Ideal.ofBits, Ideal.ieee]
theorem w_one : Ideal.ofBits .f32 0x3F800000#32 = 1 := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_2048 : Ideal.ofBits .f32 0x45000000#32 = ((2048 : ℝ) : EReal) := by
  simp [Ideal.ofBits, Ideal.ieee, -EReal.coe_mul]; norm_num
theorem w_inv32 : Ideal.ofBits .f32 0x3D000000#32 = ((1 / 32 : ℝ) : EReal) := by
  simp [Ideal.ofBits, Ideal.ieee, -EReal.coe_mul]; norm_num
theorem w_inv2048 : Ideal.ofBits .f32 0x3A000000#32 = ((1 / 2048 : ℝ) : EReal) := by
  simp [Ideal.ofBits, Ideal.ieee, -EReal.coe_mul]; norm_num
theorem w_negInf : Ideal.ofBits .f32 0xFF800000#32 = ⊥ := by
  simp [Ideal.ofBits, Ideal.ieee]

/-- The reference's scale 1 / √1024 is exactly the kernel's word 1/32. -/
theorem scale_host :
    Ideal.div (Ideal.ofBits .f32 0x3F800000#32) (Ideal.sqrt (Ideal.ofBits .f32 0x44800000#32)) = Ideal.ofBits .f32 0x3D000000#32 := by
  rw [w_one, w_1024, w_inv32]
  have hs : Ideal.sqrt ((1024 : ℝ) : EReal) = ((32 : ℝ) : EReal) := by
    show (if (1024 : ℝ) < 0 then (⊥ : EReal) else ((Real.sqrt 1024 : ℝ) : EReal)) = _
    rw [if_neg (by norm_num), show (1024 : ℝ) = 32 ^ 2 by norm_num, Real.sqrt_sq (by norm_num)]
  rw [hs, Ideal.div_coe (by norm_num : (32 : ℝ) ≠ 0), one_mul]

/-! ## Coercions of finite sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = ((Real.exp r : ℝ) : EReal) := rfl

/-- A fold of max from −∞ over a nonempty finite family of reals is a real. -/
theorem foldMax_real {ι : Type} [Fintype ι] [Nonempty ι] (f : ι → ℝ) :
    ∃ μ : ℝ, (Finset.univ : Finset ι).fold max (⊥ : EReal) (fun i => (f i : EReal)) = (μ : EReal) := by
  have h1 : (Finset.univ : Finset ι).fold max (⊥ : EReal) (fun i => (f i : EReal)) < ⊤ :=
by
    rw [Finset.fold_max_lt]; exact ⟨bot_lt_top, fun i _ => EReal.coe_lt_top _⟩
  have h2 : (⊥ : EReal) < (Finset.univ : Finset ι).fold max (⊥ : EReal) (fun i => (f i : EReal)) :=
by
    rw [Finset.lt_fold_max]; exact Or.inr ⟨Classical.arbitrary ι, Finset.mem_univ _, EReal.bot_lt_coe _⟩
  exact ⟨_, (EReal.coe_toReal h1.ne h2.ne').symm⟩

/-! ## The specification -/

section Spec

variable (X : Fin 2048 → Fin 8 → Fin 1024 → EReal)

/-- The scaled dot product of rows q and k of batch b. -/
def score (b : Fin 8) (q k : Fin 2048) : EReal :=
  (∑ h : Fin 1024, X q b h * X k b h) * Ideal.ofBits .f32 0x3D000000#32
/-- The largest score of row q. -/
def rowMax (b : Fin 8) (q : Fin 2048) : EReal :=
  (Finset.univ : Finset (Fin 2048)).fold max (Ideal.ofBits .f32 0xFF800000#32) (fun k => score X b q k)
def ex (b : Fin 8) (q k : Fin 2048) : EReal := Ideal.exp (score X b q k - rowMax X b q)
def den (b : Fin 8) (q : Fin 2048) : EReal := ∑ k : Fin 2048, ex X b q k
/-- The softmax weight of key k for query q. -/
def weight (b : Fin 8) (q k : Fin 2048) : EReal := Ideal.div (ex X b q k) (den X b q)

/-- Row r of query tile j. -/
def qrow (j : Fin 4) (r : Fin 512) : Fin 2048 := ⟨512 * j.val + r.val, by have := j.isLt; have := r.isLt; omega⟩
/-- The sum of column k of tile j's weights. -/
def colSum (b : Fin 8) (j : Fin 4) (k : Fin 2048) : EReal := ∑ r : Fin 512, weight X b (qrow j r) k
/-- The accumulator after the four tiles of batch b. -/
def acc (b : Fin 8) (k : Fin 2048) : EReal :=
  (((Ideal.ofBits .f32 0x00000000#32 + colSum X b 0 k) + colSum X b 1 k) + colSum X b 2 k) + colSum X b 3 k
/-- The pooled context as the kernel forms it. -/
def pooledByColumns (b : Fin 8) (h : Fin 1024) : EReal :=
  ∑ k : Fin 2048, (acc X b k * Ideal.ofBits .f32 0x3A000000#32) * X k b h
/-- The pooled context as the reference forms it. -/
def pooledByRows (b : Fin 8) (h : Fin 1024) : EReal :=
  Ideal.div (Ideal.ofBits .f32 0x00000000#32 + ∑ q : Fin 2048, ∑ k : Fin 2048, weight X b q k * X k b h)
    (Ideal.ofBits .f32 0x45000000#32)

end Spec

/-! ## On real inputs every weight is real -/

section Real

variable (x : Fin 2048 → Fin 8 → Fin 1024 → ℝ)

local notation "Xc" => (fun q b h => ((x q b h : ℝ) : EReal))

def scoreR (b : Fin 8) (q k : Fin 2048) : ℝ := (∑ h : Fin 1024, x q b h * x k b h) * (1 / 32)

theorem score_coe (b : Fin 8) (q k : Fin 2048) : score Xc b q k = ((scoreR x b q k : ℝ) : EReal) := by
  unfold score scoreR
  rw [w_inv32, EReal.coe_mul, coe_sum]
  simp only [EReal.coe_mul]

theorem rowMax_real (b : Fin 8) (q : Fin 2048) : ∃ μ : ℝ, rowMax Xc b q = (μ : EReal) := by
  unfold rowMax
  rw [w_negInf]
  simp only [score_coe]
  exact foldMax_real (fun k => scoreR x b q k)

/-- The real value of the row maximum. -/
def muR (b : Fin 8) (q : Fin 2048) : ℝ := Classical.choose (rowMax_real x b q)
theorem rowMax_coe (b : Fin 8) (q : Fin 2048) : rowMax Xc b q = ((muR x b q : ℝ) : EReal) :=
  Classical.choose_spec (rowMax_real x b q)

def exR (b : Fin 8) (q k : Fin 2048) : ℝ := Real.exp (scoreR x b q k - muR x b q)
theorem ex_coe (b : Fin 8) (q k : Fin 2048) : ex Xc b q k = ((exR x b q k : ℝ) : EReal) := by
  unfold ex exR
  rw [score_coe, rowMax_coe, ← EReal.coe_sub, exp_coe]

def denR (b : Fin 8) (q : Fin 2048) : ℝ := ∑ k : Fin 2048, exR x b q k
theorem den_coe (b : Fin 8) (q : Fin 2048) : den Xc b q = ((denR x b q : ℝ) : EReal) := by
  unfold den denR
  rw [coe_sum]
  simp only [ex_coe]
theorem denR_pos (b : Fin 8) (q : Fin 2048) : 0 < denR x b q :=
  Finset.sum_pos (fun k _ => Real.exp_pos _) ⟨0, Finset.mem_univ _⟩

def weightR (b : Fin 8) (q k : Fin 2048) : ℝ := exR x b q k * (1 / denR x b q)
theorem weight_coe (b : Fin 8) (q k : Fin 2048) : weight Xc b q k = ((weightR x b q k : ℝ) : EReal) := by
  unfold weight weightR
  rw [ex_coe, den_coe, Ideal.div_coe (denR_pos x b q).ne', EReal.coe_mul]

/-! ## The two arrangements of the pooled context agree -/

/-- A sum over the 2048 query rows is the sum over the four tiles of the sums over each tile's 512 rows. -/
theorem sum_tiles (f : Fin 2048 → ℝ) :
    ∑ q : Fin 2048, f q = (∑ r : Fin 512, f (qrow 0 r)) + (∑ r : Fin 512, f (qrow 1 r)) + (∑ r : Fin 512, f (qrow 2 r)) + (∑ r : Fin 512, f (qrow 3 r)) := by
  have e : ∑ p : Fin 4 × Fin 512, f (qrow p.1 p.2) = ∑ q : Fin 2048, f q :=
    Fintype.sum_equiv (finProdFinEquiv : Fin 4 × Fin 512 ≃ Fin (4 * 512)) (fun p => f (qrow p.1 p.2)) f (fun p => by
      congr 1
      apply Fin.ext
      simp only [qrow, finProdFinEquiv_apply_val]
      omega)
  rw [← e, Fintype.sum_prod_type, Fin.sum_univ_four]

theorem pooled_eq (b : Fin 8) (h : Fin 1024) : pooledByColumns Xc b h = pooledByRows Xc b h := by
  have hc : pooledByColumns Xc b h
      = ((∑ k : Fin 2048, ((((0 + ∑ r : Fin 512, weightR x b (qrow 0 r) k) + ∑ r : Fin 512, weightR x b (qrow 1 r) k)
            + ∑ r : Fin 512, weightR x b (qrow 2 r) k) + ∑ r : Fin 512, weightR x b (qrow 3 r) k) * (1 / 2048) * x k b h : ℝ) : EReal) := by
    unfold pooledByColumns acc colSum
    rw [w_zero, w_inv2048]
    simp only [weight_coe]
    simp only [← coe_sum, ← EReal.coe_zero, ← EReal.coe_add, ← EReal.coe_mul]
  have hr : pooledByRows Xc b h
      = (((0 + ∑ q : Fin 2048, ∑ k : Fin 2048, weightR x b q k * x k b h) * (1 / 2048) : ℝ) : EReal) := by
    unfold pooledByRows
    rw [w_zero, w_2048, Ideal.div_coe (by norm_num : (2048 : ℝ) ≠ 0)]
    simp only [weight_coe]
    simp only [← coe_sum, ← EReal.coe_zero, ← EReal.coe_add, ← EReal.coe_mul]
  rw [hc, hr]
  refine congrArg (fun r : ℝ => (r : EReal)) ?_
  rw [zero_add, Finset.sum_comm, Finset.sum_mul]
  refine Finset.sum_congr rfl fun k _ => ?_
  rw [zero_add, ← sum_tiles (fun q => weightR x b q k), ← Finset.sum_mul]
  ring

end Real

/-- For an X whose entries are all real numbers the kernel's arrangement of the pooled context is the reference's. -/
theorem pooledByColumns_eq_pooledByRows (X : Fin 2048 → Fin 8 → Fin 1024 → EReal)
    (hX : ∀ q b h, ∃ r : ℝ, X q b h = (r : EReal)) (b : Fin 8) (h : Fin 1024) :
    pooledByColumns X b h = pooledByRows X b h := by
  choose x hx using hX
  obtain rfl : X = fun q b h => ((x q b h : ℝ) : EReal) := by funext q b h; exact hx q b h
  exact pooled_eq x b h

end Cert.AttnSpec

end
-- ==== Proof.KernelIdealPayloads.lean ====
/-
  The kernel body's arithmetic at one grid point, as functions of the two input blocks: x0, the tile of 512 query rows,
  and x1, the batch's 2048 rows (each row 1024 features).

    tile weight(r, k) = exp(s(r,k) − max_k' s(r,k')) / Σ_k' exp(s(r,k') − max_k'' s(r,k'')),
        s(r, k) = (Σ_h x0(r,h) · x1(k,h)) · (1/32)
    the attention buffer is stored with the tile weights;
    the accumulator is stored with its previous contents plus the tile's column sums Σ_r weight(r, k);
    the context buffer (at the last tile) is stored with Σ_k (acc(k) · (1/2048)) · x1(k, h).

  A change of float format is the identity on the extended reals, the product into the zero accumulator is the plain
  sum of products, and the lane reductions are the plain sum and the fold of max.
-/
import proofs.«110505_j37864431681993_2_alg».proof.Proof.Gen.KernelIdeal.Skeleton
import proofs.«110505_j37864431681993_2_alg».proof.Proof.LibRowOps
import proofs.«110505_j37864431681993_2_alg».proof.Proof.LibColReduce
import proofs.«110505_j37864431681993_2_alg».proof.Proof.LibMatmulZero
import proofs.«110505_j37864431681993_2_alg».proof.Proof.AttnSpec
import Idealize.ShloMosaic.Lib.ValueLayout

noncomputable section

open scoped BigOperators

namespace Cert.KernelIdeal.PayValue

open Cert.KernelIdeal Cert.KernelIdeal.Gen Idealize.ShloMosaic Idealize.ShloMosaic.ValueIdx Cert.AttnSpec

/-! ## Softmax along the lanes, for any score matrix -/

theorem softmaxRow {R C : Nat} (S : FVec Ideal ⟨2, ![R, C]⟩ .f32)
    (hred : Shape.Reduces (⟨2, ![R, C]⟩ : Shape) [1] ⟨1, ![R]⟩)
    (h1 : (⟨1, ![R]⟩ : Shape).ShapeCasts ⟨2, ![R, 1]⟩) (h2 : (⟨2, ![R, 1]⟩ : Shape).Broadcasts ⟨2, ![R, C]⟩)
    (hφ : FKind.Formats .f32) (hφ' : FKind.Formats .f32)
    (haccM : (0xFF800000#32 : BitVec 32) = FKind.maximumf.neutral .f32 hφ)
    (haccA : (0x00000000#32 : BitVec 32) = FKind.add.neutral .f32 hφ') (r : Fin R) (k : Fin C) :
    divf (exp (subf S (broadcastTo ⟨2, ![R, C]⟩ (shapeCast ⟨2, ![R, 1]⟩ (multiReduction .maximumf [1] ⟨1, ![R]⟩ S 0xFF800000#32 hred hφ haccM) h1) h2)))
        (broadcastTo ⟨2, ![R, C]⟩ (shapeCast ⟨2, ![R, 1]⟩ (multiReduction .add [1] ⟨1, ![R]⟩
          (exp (subf S (broadcastTo ⟨2, ![R, C]⟩ (shapeCast ⟨2, ![R, 1]⟩ (multiReduction .maximumf [1] ⟨1, ![R]⟩ S 0xFF800000#32 hred hφ haccM) h1) h2)))
          0x00000000#32 hred hφ' haccA) h1) h2) (ix2 r k)
      = Ideal.div (Ideal.exp (S (ix2 r k) - (Finset.univ : Finset (Fin C)).fold max (Ideal.ofBits .f32 0xFF800000#32) (fun k' => S (ix2 r k'))))
          (∑ c : Fin C, Ideal.exp (S (ix2 r c) - (Finset.univ : Finset (Fin C)).fold max (Ideal.ofBits .f32 0xFF800000#32) (fun k' => S (ix2 r k')))) := by
  have hm : ∀ c : Fin C, broadcastTo ⟨2, ![R, C]⟩ (shapeCast ⟨2, ![R, 1]⟩ (multiReduction .maximumf [1] ⟨1, ![R]⟩ S 0xFF800000#32 hred hφ haccM) h1) h2 (ix2 r c)
      = (Finset.univ : Finset (Fin C)).fold max (Ideal.ofBits .f32 0xFF800000#32) (fun k' => S (ix2 r k')) :=
    fun c => (Cert.LibRow.colBroadcast_apply _ h1 h2 r c).trans (Cert.LibRow.rowMax_apply S _ hred hφ haccM r)
  have he : ∀ c : Fin C, exp (subf S (broadcastTo ⟨2, ![R, C]⟩ (shapeCast ⟨2, ![R, 1]⟩ (multiReduction .maximumf [1] ⟨1, ![R]⟩ S 0xFF800000#32 hred hφ haccM) h1) h2)) (ix2 r c)
      = Ideal.exp (S (ix2 r c) - (Finset.univ : Finset (Fin C)).fold max (Ideal.ofBits .f32 0xFF800000#32) (fun k' => S (ix2 r k'))) :=
    fun c => congrArg (fun m : EReal => Ideal.exp (S (ix2 r c) - m)) (hm c)
  refine (congrArg₂ Ideal.div (he k) ((Cert.LibRow.colBroadcast_apply _ h1 h2 r k).trans (Cert.LibRow.rowAdd_apply _ hred hφ' haccA r))).trans ?_
  exact congrArg (Ideal.div _) (Finset.sum_congr rfl fun c _ => he c)

/-! ## The tile's scores and weights -/

section Tile

variable (x0 : Vec Ideal S1x512x1024 .bf16) (x1 : Vec Ideal S1x2048x1024 .bf16)

def tscore (r : Fin 512) (k : Fin 2048) : EReal :=
  (∑ h : Fin 1024, x0 (ix3 (0 : Fin 1) r h) * x1 (ix3 (0 : Fin 1) k h)) * Ideal.ofBits .f32 0x3D000000#32
def tmax (r : Fin 512) : EReal :=
  (Finset.univ : Finset (Fin 2048)).fold max (Ideal.ofBits .f32 0xFF800000#32) (fun k => tscore x0 x1 r k)
def tex (r : Fin 512) (k : Fin 2048) : EReal := Ideal.exp (tscore x0 x1 r k - tmax x0 x1 r)
def tden (r : Fin 512) : EReal := ∑ k : Fin 2048, tex x0 x1 r k
def tweight (r : Fin 512) (k : Fin 2048) : EReal := Ideal.div (tex x0 x1 r k) (tden x0 x1 r)

/-- The tile's scaled scores as the body computes them. -/
def scores : FVec Ideal S512x2048 .f32 :=
  mulf (matmul dot_S512x1024_S2048x1024_S512x2048_1_1_0_0_n_n none (shapeCast S512x1024 (x0 : FVec Ideal S1x512x1024 .bf16) shapeCasts_S1x512x1024_S512x1024 : FVec Ideal S512x1024 .bf16) (k0_pay2 x1)
      (constant S512x2048 .f32 0x00000000#32)) (broadcast S512x2048 (Scalar.ofBits .f32 0x3D000000#32))

theorem scores_at (r : Fin 512) (k : Fin 2048) : scores x0 x1 (ix2 r k) = tscore x0 x1 r k := by
  have hM := Cert.LibRow.matmul_zero_nt_ix2 (φ₁ := .bf16) (φ₂ := .bf16) dot_S512x1024_S2048x1024_S512x2048_1_1_0_0_n_n rfl rfl rfl rfl
    (fun i c => by
      unfold DotDims.lhsIdx
      rw [dif_neg (show ¬(0 : Fin _) ∈ dot_S512x1024_S2048x1024_S512x2048_1_1_0_0_n_n.lhsBatch by decide),
        dif_pos (show (0 : Fin _) ∈ dot_S512x1024_S2048x1024_S512x2048_1_1_0_0_n_n.lhsNonContracting by decide)]
      rfl)
    (fun i c => by
      unfold DotDims.rhsIdx
      rw [dif_neg (show ¬(0 : Fin _) ∈ dot_S512x1024_S2048x1024_S512x2048_1_1_0_0_n_n.rhsBatch by decide),
        dif_pos (show (0 : Fin _) ∈ dot_S512x1024_S2048x1024_S512x2048_1_1_0_0_n_n.rhsNonContracting by decide)]
      rfl)
    none (shapeCast S512x1024 (x0 : FVec Ideal S1x512x1024 .bf16) shapeCasts_S1x512x1024_S512x1024) (shapeCast S2048x1024 (x1 : FVec Ideal S1x2048x1024 .bf16) shapeCasts_S1x2048x1024_S2048x1024) r k
  unfold scores tscore k0_pay2
  show (_ : EReal) * (_ : EReal) = _
  rw [hM]
  refine congrArg₂ (fun a b : EReal => a * b) (Finset.sum_congr rfl fun h _ => ?_) rfl
  rw [shapeCast_1ab_ab_apply, shapeCast_1ab_ab_apply]

/-- The softmax tile at row r, column k. -/
theorem pay3_at (r : Fin 512) (k : Fin 2048) : k0_pay3 (F := Ideal) x0 x1 (ix2 r k) = tweight x0 x1 r k := by
  have h := softmaxRow (scores x0 x1) reduces_S512x2048_S512 shapeCasts_S512_S512x1 broadcasts_S512x1_S512x2048 (.inl rfl) (.inl rfl) rfl rfl r k
  refine (Eq.trans (by rfl) h).trans ?_
  unfold tweight tden tex tmax
  simp only [scores_at]

theorem pay4_at (r : Fin 512) (k : Fin 2048) : k0_pay4 (F := Ideal) x0 x1 (ix3 (0 : Fin 1) r k) = tweight x0 x1 r k := by
  unfold k0_pay4
  exact (shapeCast_ab_1ab_apply (k0_pay3 (F := Ideal) x0 x1) shapeCasts_S512x2048_S1x512x2048 0 r k).trans (pay3_at x0 x1 r k)

/-- The accumulator's update: what it held plus the tile's column sums. -/
theorem pay5_at (v22 : Vec Ideal S1x2048 .f32) (k : Fin 2048) :
    k0_pay5 (F := Ideal) x0 x1 v22 (ix2 (0 : Fin 1) k) = v22 (ix2 (0 : Fin 1) k) + ∑ r : Fin 512, tweight x0 x1 r k := by
  unfold k0_pay5
  rw [shapeCast_self]
  show (v22 (ix2 (0 : Fin 1) k) : EReal) + _ = _
  rw [shapeCast_a_1a_apply]
  refine congrArg (fun z : EReal => v22 (ix2 (0 : Fin 1) k) + z)
    ((Cert.Lib.colAdd_apply (k0_pay3 (F := Ideal) x0 x1) reduces_S512x2048_S2048 (.inl rfl) rfl k).trans ?_)
  exact Finset.sum_congr rfl fun r _ => pay3_at x0 x1 r k

end Tile

/-- The zeroed accumulator. -/
theorem pay1_at (k : Fin 2048) : k0_pay1 (F := Ideal) (ix2 (0 : Fin 1) k) = Ideal.ofBits .f32 0x00000000#32 := by
  unfold k0_pay1
  rw [shapeCast_self]
  rfl

/-- The context row: the scaled accumulator multiplied into the batch's rows. -/
theorem pay6_at (x1 : Vec Ideal S1x2048x1024 .bf16) (v32 : Vec Ideal S1x2048 .f32) (h : Fin 1024) :
    k0_pay6 (F := Ideal) x1 v32 (ix3 (0 : Fin 1) (0 : Fin 1) h)
      = ∑ k : Fin 2048, (v32 (ix2 (0 : Fin 1) k) * Ideal.ofBits .f32 0x3A000000#32) * x1 (ix3 (0 : Fin 1) k h) := by
  have hM := Cert.LibMatmulZero.matmul_zero_ix2 (φ₁ := .bf16) (φ₂ := .bf16) dot_S1x2048_S2048x1024_S1x1024_1_0_0_1_n_n rfl rfl rfl rfl
    (fun i c => by
      unfold DotDims.lhsIdx
      rw [dif_neg (show ¬(0 : Fin _) ∈ dot_S1x2048_S2048x1024_S1x1024_1_0_0_1_n_n.lhsBatch by decide),
        dif_pos (show (0 : Fin _) ∈ dot_S1x2048_S2048x1024_S1x1024_1_0_0_1_n_n.lhsNonContracting by decide)]
      rfl)
    (fun i c => by
      unfold DotDims.rhsIdx
      rw [dif_neg (show ¬(1 : Fin _) ∈ dot_S1x2048_S2048x1024_S1x1024_1_0_0_1_n_n.rhsBatch by decide),
        dif_pos (show (1 : Fin _) ∈ dot_S1x2048_S2048x1024_S1x1024_1_0_0_1_n_n.rhsNonContracting by decide)]
      rfl)
    none (truncf .bf16 (mulf v32 (broadcast S1x2048 (Scalar.ofBits .f32 0x3A000000#32))) bitsLt_bf16_f32)
    (shapeCast S2048x1024 (x1 : FVec Ideal S1x2048x1024 .bf16) shapeCasts_S1x2048x1024_S2048x1024) (0 : Fin 1) h
  unfold k0_pay6 k0_pay2
  refine (shapeCast_apply _ shapeCasts_S1024_S1x1x1024 (ix3 (0 : Fin 1) (0 : Fin 1) h) (ix1 h) (by
    rw [Shape.rowMajor_val_one, Shape.rowMajor_val_three]
    show h.val = (0 * 1 + 0) * 1024 + h.val
    omega)).trans ?_
  rw [shapeCast_1a_a_apply, hM]
  refine Finset.sum_congr rfl fun k _ => ?_
  rw [shapeCast_1ab_ab_apply]
  rfl

end Cert.KernelIdeal.PayValue

end
-- ==== Proof.KernelIdealValue.lean ====
/-
  The kernel's two results, index by index, at the ideal values.

  With X the argument array by coordinates (sequence position, batch, feature): the batch-major array the region reads
  is X transposed (the change of format is the identity); at the point t = 4·b + j the query-tile window's block is rows
  512·j … 512·j + 511 of batch b and the whole-batch window's block is all of batch b.  Hence the attention buffer holds
  the softmax weights of those query rows, the accumulator after tile j holds the column sums of tiles 0 … j, and at
  j = 3 the context buffer holds the kernel's arrangement of the pooled context.  The attention array is tiled by the 32
  points' blocks and the context array by the 8 blocks written back where j = 3; the reshape after the region drops the
  context array's unit axis.
-/
import proofs.«110505_j37864431681993_2_alg».proof.Proof.KernelIdealLaunch
import proofs.«110505_j37864431681993_2_alg».proof.Proof.KernelIdealPieces
import proofs.«110505_j37864431681993_2_alg».proof.Proof.KernelIdealPayloads
import proofs.«110505_j37864431681993_2_alg».proof.Proof.AttnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.AttnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Attn Cert.KernelIdeal.PayValue Cert.AttnSpec

variable (m : (ℓ : Loc nD τ sig) → Buf (Elt Ideal) ℓ) (ρ : Dev nD → PrngReg)

/-! ## The argument by coordinates, and the grid's points -/

/-- The argument array of core `c` by coordinates (sequence position, batch, feature). -/
def X (c : Dev nD) : Fin 2048 → Fin 8 → Fin 1024 → EReal :=
  fun q b h => (m ((c : Thread nD τ).loc main_arg0) : S2048x8x1024.Idx → EReal) (ix3 q b h)

theorem N32 : cfg0.N = 32 := N_0
/-- The batch of point t. -/
def bOf (t : Fin cfg0.N) : Fin 8 := ⟨t.val / 4, by have := lt_of_lt_of_eq t.isLt N32; omega⟩
/-- The query tile of point t. -/
def jOf (t : Fin cfg0.N) : Fin 4 := ⟨t.val % 4, by omega⟩

/-- The windows' block indices at point t = 4·b + j, decided over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## The batch-major array and the input blocks -/

/-- The array both input windows read is the argument transposed to batch-major. -/
theorem V_v1 (c : Dev nD) (b : Fin 8) (q : Fin 2048) (h : Fin 1024) :
    (V m c main_v1 : S8x2048x1024.Idx → EReal) (ix3 b q h) = X m c q b h := by
  have e : V m c main_v1
      = (truncf (F := Ideal) .bf16 (transpose S8x2048x1024 [1, 0, 2] (m ((c : Thread nD τ).loc main_arg0)) transposes_S2048x8x1024_S8x2048x1024_1_0_2) bitsLt_bf16_f32 : FVec Ideal S8x2048x1024 .bf16) := by
    dsimp only [V, V0]; simp only [hostOps0, List.flatten_cons, List.flatten_nil, List.append_nil]; after_results
  rw [e]
  exact transpose_apply [1, 0, 2] _ transposes_S2048x8x1024_S8x2048x1024_1_0_2 (ix3 b q h) (ix3 q b h) (fun a => match a with
    | ⟨0, _⟩ => rfl
    | ⟨1, _⟩ => rfl
    | ⟨2, _⟩ => rfl)

/-- The query-tile block at point t: rows 512·j … of batch b. -/
theorem iblk0_at (c : Dev nD) (t : Fin cfg0.N) (r : Fin 512) (h : Fin 1024) :
    iblk m c 0 t (ix3 (0 : Fin 1) r h) = X m c (qrow (jOf t) r) (bOf t) h := by
  obtain ⟨e0, e1, e2, -⟩ := idx_facts t
  unfold iblk
  show V m c main_v1 (((cfg0.win 0).blk t).view.emb (ix3 (0 : Fin 1) r h)) = _
  rw [show ((cfg0.win 0).blk t).view.emb (ix3 (0 : Fin 1) r h) = ix3 (bOf t) (qrow (jOf t) r) h from by
    funext a; apply Fin.ext
    match a with
    | ⟨0, _⟩ => show win0_0.index t (0 : Fin 3) * 1 + 1 * 0 = t.val / 4; omega
    | ⟨1, _⟩ => show win0_0.index t (1 : Fin 3) * 512 + 1 * r.val = 512 * (t.val % 4) + r.val; omega
    | ⟨2, _⟩ => show win0_0.index t (2 : Fin 3) * 1024 + 1 * h.val = h.val; omega]
  exact V_v1 m c _ _ _

/-- The whole-batch block at point t: all rows of batch b. -/
theorem iblk1_at (c : Dev nD) (t : Fin cfg0.N) (k : Fin 2048) (h : Fin 1024) :
    iblk m c 1 t (ix3 (0 : Fin 1) k h) = X m c k (bOf t) h := by
  obtain ⟨-, -, -, e0, e1, e2, -⟩ := idx_facts t
  unfold iblk
  show V m c main_v1 (((cfg0.win 1).blk t).view.emb (ix3 (0 : Fin 1) k h)) = _
  rw [show ((cfg0.win 1).blk t).view.emb (ix3 (0 : Fin 1) k h) = ix3 (bOf t) k h from by
    funext a; apply Fin.ext
    match a with
    | ⟨0, _⟩ => show win0_1.index t (0 : Fin 3) * 1 + 1 * 0 = t.val / 4; omega
    | ⟨1, _⟩ => show win0_1.index t (1 : Fin 3) * 2048 + 1 * k.val = k.val; omega
    | ⟨2, _⟩ => show win0_1.index t (2 : Fin 3) * 1024 + 1 * h.val = h.val; omega]
  exact V_v1 m c _ _ _

/-- The two input blocks of point t, at their literal vector types. -/
def blkQ (c : Dev nD) (t : Fin cfg0.N) : Vec Ideal S1x512x1024 .bf16 := iblk m c 0 t
def blkKV (c : Dev nD) (t : Fin cfg0.N) : Vec Ideal S1x2048x1024 .bf16 := iblk m c 1 t
theorem blkQ_at (c : Dev nD) (t : Fin cfg0.N) (r : Fin 512) (h : Fin 1024) :
    blkQ m c t (ix3 (0 : Fin 1) r h) = X m c (qrow (jOf t) r) (bOf t) h := iblk0_at m c t r h
theorem blkKV_at (c : Dev nD) (t : Fin cfg0.N) (k : Fin 2048) (h : Fin 1024) :
    blkKV m c t (ix3 (0 : Fin 1) k h) = X m c k (bOf t) h := iblk1_at m c t k h

/-- The tile's weights at point t are the specification's weights of the tile's query rows. -/
theorem tweight_iblk (c : Dev nD) (t : Fin cfg0.N) (r : Fin 512) (k : Fin 2048) :
    tweight (blkQ m c t) (blkKV m c t) r k = weight (X m c) (bOf t) (qrow (jOf t) r) k := by
  unfold tweight weight tden den tex ex tmax rowMax tscore score
  simp only [blkQ_at, blkKV_at]

/-! ## What each point leaves -/

/-- The attention buffer after the body at point t, as the body's arithmetic of the point's input blocks. -/
theorem attn_vec (c : Dev nD) (t : Fin cfg0.N) :
    (outsAt m c t.val t.isLt).2.1 = k0_pay4 (F := Ideal) (blkQ m c t) (blkKV m c t) := by
  by_cases h0 : t.val % 4 = 0
  · have h1 : ¬ t.val % 4 = 3 := by omega
    rw [outsAt_reset m c t h0 h1]
    dsimp only
    exact attnReset_eq (F := Ideal) c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t)
  · by_cases h1 : t.val % 4 = 3
    · rw [outsAt_last m c t h0 h1]
      dsimp only
      exact attnLast_eq (F := Ideal) c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2
    · rw [outsAt_mid m c t h0 h1]
      dsimp only
      exact attnMid_eq (F := Ideal) c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2

/-- The accumulator after the body at the first tile of a batch. -/
theorem acc_vec_reset (c : Dev nD) (t : Fin cfg0.N) (h0 : t.val % 4 = 0) :
    (outsAt m c t.val t.isLt).2.2 = k0_pay5 (F := Ideal) (blkQ m c t) (blkKV m c t) (k0_pay1 (F := Ideal)) := by
  have h1 : ¬ t.val % 4 = 3 := by omega
  rw [outsAt_reset m c t h0 h1]
  dsimp only
  exact accReset_eq (F := Ideal) c (grid0.coords t) (ms0 t) (hs0 t) (ms1 t) (hs1 t) (ms2 t) (hs2 t) (ms3 t) (hs3 t) accM (Memref.isWhole_whole _) ((hcondReset t).mpr h0) (fun h => h1 ((hcondLast t).mp h)) (iblk m c 0 t) (iblk m c 1 t)

/-- The accumulator after the body at a middle tile, from what the point before left. -/
theorem acc_vec_mid (c : Dev nD) (t : Fin cfg0.N) (h0 : ¬ t.val % 4 = 0) (h1 : ¬ t.val % 4 = 3) :
    (outsAt m c t.val t.isLt).2.2 = k0_pay5 (F := Ideal) (blkQ m c t) (blkKV m c t) (outsAt m c (t.val - 1) (Nat.lt_of_le_of_lt (Nat.sub_le _ _) t.isLt)).2.2 := by
  rw [outsAt_mid m c t h0 h1]
  dsimp only
  exact accMid_eq (F := Ideal) c (grid0.coords t) (ms0 t) (hs0 t) (ms1 t) (hs1 t) (ms2 t) (hs2 t) (ms3 t) (hs3 t) accM (Memref.isWhole_whole _) (fun h => h0 ((hcondReset t).mp h)) (fun h => h1 ((hcondLast t).mp h)) (iblk m c 0 t) (iblk m c 1 t) (outsAt m c (t.val - 1) (Nat.lt_of_le_of_lt (Nat.sub_le _ _) t.isLt)).2.2

/-- The context buffer after the body at the last tile. -/
theorem ctx_vec_last (c : Dev nD) (t : Fin cfg0.N) (h0 : ¬ t.val % 4 = 0) (h1 : t.val % 4 = 3) :
    (outsAt m c t.val t.isLt).1 = k0_pay6 (F := Ideal) (blkKV m c t) (k0_pay5 (F := Ideal) (blkQ m c t) (blkKV m c t) (outsAt m c (t.val - 1) (Nat.lt_of_le_of_lt (Nat.sub_le _ _) t.isLt)).2.2) := by
  rw [outsAt_last m c t h0 h1]
  dsimp only
  exact ctxLast_eq (F := Ideal) c (grid0.coords t) (ms0 t) (hs0 t) (ms1 t) (hs1 t) (ms2 t) (hs2 t) (ms3 t) (hs3 t) accM (Memref.isWhole_whole _) (fun h => h0 ((hcondReset t).mp h)) ((hcondLast t).mpr h1) (iblk m c 0 t) (iblk m c 1 t) (outsAt m c (t.val - 1) (Nat.lt_of_le_of_lt (Nat.sub_le _ _) t.isLt)).2.2

/-- The attention buffer after the body at point t: the softmax weights of the tile's query rows. -/
theorem attn_at (c : Dev nD) (t : Fin cfg0.N) (r : Fin 512) (k : Fin 2048) :
    (outsAt m c t.val t.isLt).2.1 (ix3 (0 : Fin 1) r k) = weight (X m c) (bOf t) (qrow (jOf t) r) k := by
  rw [attn_vec m c t]
  exact (pay4_at (blkQ m c t) (blkKV m c t) r k).trans (tweight_iblk m c t r k)

/-- The column sums of tile j, through the tile's blocks at a point t of that tile. -/
theorem colSum_iblk (c : Dev nD) (t : Fin cfg0.N) (j : Fin 4) (hj : jOf t = j) (k : Fin 2048) :
    ∑ r : Fin 512, tweight (blkQ m c t) (blkKV m c t) r k = colSum (X m c) (bOf t) j k := by
  unfold colSum
  refine Finset.sum_congr rfl fun r _ => ?_
  rw [tweight_iblk, hj]

/-- The point before, within the same batch. -/
def prev (t : Fin cfg0.N) : Fin cfg0.N := ⟨t.val - 1, Nat.lt_of_le_of_lt (Nat.sub_le _ _) t.isLt⟩
theorem bOf_prev (t : Fin cfg0.N) (h : t.val % 4 ≠ 0) : bOf (prev t) = bOf t := Fin.ext (by show (t.val - 1) / 4 = t.val / 4; omega)

/-- The accumulator after the first tile of a batch. -/
theorem acc_at0 (c : Dev nD) (t : Fin cfg0.N) (h : t.val % 4 = 0) (k : Fin 2048) :
    (outsAt m c t.val t.isLt).2.2 (ix2 (0 : Fin 1) k) = Ideal.ofBits .f32 0x00000000#32 + colSum (X m c) (bOf t) 0 k := by
  rw [acc_vec_reset m c t h, pay5_at (blkQ m c t) (blkKV m c t), pay1_at, colSum_iblk m c t 0 (Fin.ext h)]

theorem acc_at1 (c : Dev nD) (t : Fin cfg0.N) (h : t.val % 4 = 1) (k : Fin 2048) :
    (outsAt m c t.val t.isLt).2.2 (ix2 (0 : Fin 1) k)
      = (Ideal.ofBits .f32 0x00000000#32 + colSum (X m c) (bOf t) 0 k) + colSum (X m c) (bOf t) 1 k := by
  rw [acc_vec_mid m c t (by omega) (by omega), pay5_at (blkQ m c t) (blkKV m c t), colSum_iblk m c t 1 (Fin.ext h)]
  refine congrArg (fun z : EReal => z + _) ?_
  have := acc_at0 m c (prev t) (by show (t.val - 1) % 4 = 0; omega) k
  rw [bOf_prev t (by omega)] at this
  exact this

theorem acc_at2 (c : Dev nD) (t : Fin cfg0.N) (h : t.val % 4 = 2) (k : Fin 2048) :
    (outsAt m c t.val t.isLt).2.2 (ix2 (0 : Fin 1) k)
      = ((Ideal.ofBits .f32 0x00000000#32 + colSum (X m c) (bOf t) 0 k) + colSum (X m c) (bOf t) 1 k) + colSum (X m c) (bOf t) 2 k := by
  rw [acc_vec_mid m c t (by omega) (by omega), pay5_at (blkQ m c t) (blkKV m c t), colSum_iblk m c t 2 (Fin.ext h)]
  refine congrArg (fun z : EReal => z + _) ?_
  have := acc_at1 m c (prev t) (by show (t.val - 1) % 4 = 1; omega) k
  rw [bOf_prev t (by omega)] at this
  exact this

/-- What the last tile's update of the accumulator stores: the column sums of all four tiles. -/
theorem acc_last (c : Dev nD) (t : Fin cfg0.N) (h : t.val % 4 = 3) (k : Fin 2048) :
    k0_pay5 (F := Ideal) (blkQ m c t) (blkKV m c t) (outsAt m c (t.val - 1) (Nat.lt_of_le_of_lt (Nat.sub_le _ _) t.isLt)).2.2 (ix2 (0 : Fin 1) k)
      = acc (X m c) (bOf t) k := by
  rw [pay5_at (blkQ m c t) (blkKV m c t), colSum_iblk m c t 3 (Fin.ext h)]
  unfold acc
  refine congrArg (fun z : EReal => z + _) ?_
  have := acc_at2 m c (prev t) (by show (t.val - 1) % 4 = 2; omega) k
  rw [bOf_prev t (by omega)] at this
  exact this

/-- The context buffer after the body at the last tile of batch b: the kernel's arrangement of the pooled context. -/
theorem ctx_at (c : Dev nD) (t : Fin cfg0.N) (h3 : t.val % 4 = 3) (h : Fin 1024) :
    (outsAt m c t.val t.isLt).1 (ix3 (0 : Fin 1) (0 : Fin 1) h) = pooledByColumns (X m c) (bOf t) h := by
  rw [ctx_vec_last m c t (by omega) h3, pay6_at (blkKV m c t)]
  unfold pooledByColumns
  refine Finset.sum_congr rfl fun k _ => ?_
  rw [acc_last m c t h3 k, blkKV_at]

/-! ## The attention array from its 32 blocks -/

/-- The attention weights as one array. -/
def G3 (c : Dev nD) : S8x2048x2048.Idx → EReal :=
  fun i => weight (X m c) ⟨(i 0).val, (i 0).isLt⟩ ⟨(i 1).val, (i 1).isLt⟩ ⟨(i 2).val, (i 2).isLt⟩

theorem flushed3_eq (c : Dev nD) (t : Fin cfg0.N) :
    (dats m 0 c).flushed 3 t = ((cfg0.win 3).blk t).view.read (Elt Ideal) (G3 m c) := by
  obtain ⟨-, -, -, -, -, -, -, -, -, e0, e1, e2⟩ := idx_facts t
  show (cfg0.win 3).cut (grid0.coords t) ((dats m 0 c).after 3 t) = _
  rw [after3]
  funext j
  obtain ⟨u, r, k, rfl⟩ : ∃ (u : Fin 1) (r : Fin 512) (k : Fin 2048), j = ix3 u r k := ⟨j 0, j 1, j 2, eq_ix3 j⟩
  obtain rfl : u = 0 := Subsingleton.elim _ _
  show (outsAt m c t.val t.isLt).2.1 (ix3 (0 : Fin 1) r k) = G3 m c (((cfg0.win 3).blk t).view.emb (ix3 (0 : Fin 1) r k))
  rw [attn_at, show ((cfg0.win 3).blk t).view.emb (ix3 (0 : Fin 1) r k) = ix3 (bOf t) (qrow (jOf t) r) k from by
    funext a; apply Fin.ext
    match a with
    | ⟨0, _⟩ => show win0_3.index t (0 : Fin 3) * 1 + 1 * 0 = t.val / 4; omega
    | ⟨1, _⟩ => show win0_3.index t (1 : Fin 3) * 512 + 1 * r.val = 512 * (t.val % 4) + r.val; omega
    | ⟨2, _⟩ => show win0_3.index t (2 : Fin 3) * 2048 + 1 * k.val = k.val; omega]
  rfl

theorem mem_blk3 (t : Fin cfg0.N) (i : S8x2048x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v2_1).slice (win0_3.rect t)).set ↔ _
  rw [View.set_slice_whole, Rect.mem_set_unit]
  exact Iff.rfl

theorem cover3 (i : S8x2048x2048.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  let t : Fin cfg0.N := ⟨4 * (i 0).val + (i 1).val / 512, by rw [N32]; omega⟩
  obtain ⟨-, -, -, -, -, -, -, -, -, e0, e1, e2⟩ := idx_facts t
  have tv : t.val = 4 * (i 0).val + (i 1).val / 512 := rfl
  refine ⟨t, flush0_3 t, (mem_blk3 t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- The attention array after the run. -/
theorem final3 (c : Dev nD) : (dats m 0 c).arrAt 3 cfg0.N = G3 m c :=
  (dats m 0 c).arrAt_eq_of_cover 3 (G3 m c) (fun t _ => flushed3_eq m c t) cover3

/-! ## The context array from the 8 blocks written back at the last tiles -/

def G2 (c : Dev nD) : S8x1x1024.Idx → EReal :=
  fun i => pooledByColumns (X m c) ⟨(i 0).val, (i 0).isLt⟩ ⟨(i 2).val, (i 2).isLt⟩

theorem flushed2_eq (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  obtain ⟨-, -, -, -, -, -, e0, e1, e2, -⟩ := idx_facts t
  show (cfg0.win 2).cut (grid0.coords t) ((dats m 0 c).after 2 t) = _
  rw [after2]
  funext j
  obtain ⟨u, v, h, rfl⟩ : ∃ (u : Fin 1) (v : Fin 1) (h : Fin 1024), j = ix3 u v h := ⟨j 0, j 1, j 2, eq_ix3 j⟩
  obtain rfl : u = 0 := Subsingleton.elim _ _
  obtain rfl : v = 0 := Subsingleton.elim _ _
  show (outsAt m c t.val t.isLt).1 (ix3 (0 : Fin 1) (0 : Fin 1) h) = G2 m c (((cfg0.win 2).blk t).view.emb (ix3 (0 : Fin 1) (0 : Fin 1) h))
  rw [ctx_at m c t h3, show ((cfg0.win 2).blk t).view.emb (ix3 (0 : Fin 1) (0 : Fin 1) h) = ix3 (bOf t) (0 : Fin 1) h from by
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 1024 + 1 * h.val = h.val; omega]
  rfl

theorem mem_blk2 (t : Fin cfg0.N) (i : S8x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v2_0).slice (win0_2.rect t)).set ↔ _
  rw [View.set_slice_whole, Rect.mem_set_unit]
  exact Iff.rfl

theorem cover2 (i : S8x1x1024.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1024 := (i 2).isLt
  let t : Fin cfg0.N := ⟨4 * (i 0).val + 3, by rw [N32]; omega⟩
  obtain ⟨-, -, -, -, -, -, e0, e1, e2, -⟩ := idx_facts t
  have tv : t.val = 4 * (i 0).val + 3 := rfl
  refine ⟨t, (flush0_2 t).mpr (by omega), (mem_blk2 t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The context array after the region. -/
theorem final2 (c : Dev nD) : (dats m 0 c).arrAt 2 cfg0.N = G2 m c :=
  (dats m 0 c).arrAt_eq_of_cover 2 (G2 m c) (fun t hf => flushed2_eq m c t hf) cover2

/-! ## The reshape after the region -/

/-- The first result: the context array with its unit axis dropped. -/
theorem tail_v3 (c : Dev nD) (b : Fin 8) (h : Fin 1024) :
    tailVal m c main_v3 (ix2 b h) = (dats m 0 c).arrAt 2 cfg0.N (ix3 b (0 : Fin 1) h) := by
  unfold tailVal
  simp only [hostOps1, List.flatten_cons, List.flatten_nil, List.append_nil, StableHlo.after_cons, StableHlo.after_nil]
  rw [StableHlo.reshape_result]
  show shapeCast S8x1024 (exitVal m c (Proc.devRef .tc main_v2_0)) shapeCasts_S8x1x1024_S8x1024 (ix2 b h) = _
  rw [show exitVal m c (Proc.devRef .tc main_v2_0) = (dats m 0 c).arrAt 2 cfg0.N from
    Pipeline.withArrays_arr winCtx winCtx_inj c (V0 m c) _ 0]
  exact shapeCast_apply _ _ (ix2 b h) (ix3 b (0 : Fin 1) h) (by
    rw [Shape.rowMajor_val_three, Shape.rowMajor_val_two]
    show (b.val * 1 + 0) * 1024 + h.val = b.val * 1024 + h.val
    omega)

end Cert.KernelIdeal.AttnValue

end
-- ==== Proof.RefSpec.lean ====
/-
  The reference, read one operation at a time at explicit coordinates (batch b, query q, key k, feature h), is the
  specification: its scores are the scaled dot products, its row maximum the fold of max from −∞ (taking the maximum
  with −∞ once more changes nothing), its weights the quotients of the exponentials by their row sum, and its pooled
  context the mean over the queries of the weighted sums.
-/
import proofs.«110505_j37864431681993_2_alg».proof.Proof.Gen.ReferenceIdeal.Read
import proofs.«110505_j37864431681993_2_alg».proof.Proof.AttnSpec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnSpec

/-- The argument array by coordinates (sequence position, batch, feature). -/
def Xof (x0 : (⟨S2048x8x1024, .f32⟩ : BufTy).Contents (Elt Ideal)) : Fin 2048 → Fin 8 → Fin 1024 → EReal :=
  fun q b h => x0 (ix3 q b h)

variable (x0 : (⟨S2048x8x1024, .f32⟩ : BufTy).Contents (Elt Ideal))

theorem v0_at (b : Fin 8) (q : Fin 2048) (h : Fin 1024) : val_main_v0 (F := Ideal) x0 (ix3 b q h) = Xof x0 q b h := by
  rw [val_main_v0_apply]; unfold Xof
  exact congrArg x0 (by funext a; apply Fin.ext; fin_cases a <;> rfl)

theorem v5_at (b : Fin 8) (q k : Fin 2048) : val_main_v5 (F := Ideal) x0 (ix3 b q k) = score (Xof x0) b q k := by
  rw [val_main_v5_apply, val_main_v3_apply, val_main_v4_apply, val_main_v2_apply, val_main_v1_apply, val_main_cst_apply, val_main_cst_0_apply]
  unfold score
  rw [← scale_host]
  refine congrArg₂ (fun a b : EReal => a * b) (Finset.sum_congr rfl fun h _ => ?_) rfl
  rw [show lidx_main_v3 (ix3 b q k) h = ix3 b q h from (by funext a; apply Fin.ext; fin_cases a <;> rfl), show ridx_main_v3 (ix3 b q k) h = ix3 b k h from (by funext a; apply Fin.ext; fin_cases a <;> rfl), v0_at, v0_at]

theorem v8_at (b : Fin 8) (q : Fin 2048) : val_main_v8 (F := Ideal) x0 (ix2 b q) = rowMax (Xof x0) b q := by
  rw [val_main_v8_apply, val_main_v7_apply, val_main_cst_2_apply]
  unfold val_main_v6
  rw [Host.reduce_eq_fold_single FloatOps.maximumf _ _ reducesTo_S8x2048x2048_S8x2048_d2 (by decide : S8x2048x2048.Reduces [2] S8x2048) h_S_]
  have hf : (val_main_v5 (F := Ideal) x0 ∘ (by decide : S8x2048x2048.Reduces [2] S8x2048).lift (ix2 b q)) = fun k : Fin 2048 => score (Xof x0) b q k :=
    funext fun k => by
      show val_main_v5 (F := Ideal) x0 ((by decide : S8x2048x2048.Reduces [2] S8x2048).lift (ix2 b q) k) = _
      rw [show (by decide : S8x2048x2048.Reduces [2] S8x2048).lift (ix2 b q) k = ix3 b q (⟨k.val, k.isLt⟩ : Fin 2048) from (by funext a; apply Fin.ext; fin_cases a <;> rfl)]
      exact v5_at x0 b q _
  rw [hf]
  unfold rowMax
  refine max_eq_right ?_
  show (Ideal.ofBits .f32 0xFF800000#32 : EReal) ≤ Finset.fold max (Ideal.ofBits .f32 0xFF800000#32) (fun k : Fin 2048 => score (Xof x0) b q k) Finset.univ
  rw [Finset.le_fold_max]; exact Or.inl le_rfl

theorem v12_at (b : Fin 8) (q k : Fin 2048) : val_main_v12 (F := Ideal) x0 (ix3 b q k) = ex (Xof x0) b q k := by
  rw [val_main_v12_apply, val_main_v11_apply, val_main_v10_apply, val_main_v9_apply,
    show idx_main_v9 (idx_main_v10 (ix3 b q k)) = ix2 b q from (by funext a; apply Fin.ext; fin_cases a <;> rfl), v8_at, v5_at]
  rfl

theorem v13_at (b : Fin 8) (q : Fin 2048) : val_main_v13 (F := Ideal) x0 (ix2 b q) = den (Xof x0) b q := by
  rw [val_main_v13_apply, val_main_cst_3_apply]
  show Ideal.ofBits .f32 0x00000000#32 + _ = _
  rw [w_zero, zero_add]
  unfold den
  refine Finset.sum_congr rfl fun k _ => ?_
  rw [show idx_main_v13 (ix2 b q) k = ix3 b q k from (by funext a; apply Fin.ext; fin_cases a <;> rfl), v12_at]

/-- The reference's attention weights are the specification's. -/
theorem v16_at (b : Fin 8) (q k : Fin 2048) : val_main_v16 (F := Ideal) x0 (ix3 b q k) = weight (Xof x0) b q k := by
  rw [val_main_v16_apply, val_main_v15_apply, val_main_v14_apply,
    show idx_main_v14 (idx_main_v15 (ix3 b q k)) = ix2 b q from (by funext a; apply Fin.ext; fin_cases a <;> rfl), v13_at, v12_at]
  rfl

/-- The reference's pooled context is the specification's mean over the queries. -/
theorem v20_at (b : Fin 8) (h : Fin 1024) : val_main_v20 (F := Ideal) x0 (ix2 b h) = pooledByRows (Xof x0) b h := by
  rw [val_main_v20_apply, val_main_v19_apply, val_main_cst_5_apply, val_main_v18_apply, val_main_cst_4_apply]
  unfold pooledByRows
  refine congrArg₂ (fun a b : EReal => Ideal.div a b) (congrArg (fun s : EReal => Ideal.ofBits .f32 0x00000000#32 + s) (Finset.sum_congr rfl fun q _ => ?_)) rfl
  rw [show idx_main_v18 (ix2 b h) q = ix3 b q h from (by funext a; apply Fin.ext; fin_cases a <;> rfl), val_main_v17_apply]
  refine Finset.sum_congr rfl fun k _ => ?_
  rw [show lidx_main_v17 (ix3 b q h) k = ix3 b q k from (by funext a; apply Fin.ext; fin_cases a <;> rfl), show ridx_main_v17 (ix3 b q h) k = ix3 b k h from (by funext a; apply Fin.ext; fin_cases a <;> rfl), v16_at, v0_at]

end Cert.ReferenceIdeal.RefValue

end
-- ==== Proof.Bridge.lean ====
/-
  The two programs' results are equal, array by array.  The attention arrays are the same extended-real function of the
  argument, entry by entry: the specification's softmax weights.  The pooled contexts are its two arrangements, equal
  where every entry of the argument is a real number.
-/
import proofs.«110505_j37864431681993_2_alg».proof.Proof.KernelIdealValue
import proofs.«110505_j37864431681993_2_alg».proof.Proof.RefSpec

noncomputable section

namespace Cert.Bridge

open Idealize.ShloMosaic Idealize.ShloMosaic.TcCoe Idealize.ShloMosaic.ValueIdx Idealize.SL.Sem
open Cert.KernelIdeal Cert.KernelIdeal.Gen Cert.KernelIdeal.Attn Cert.KernelIdeal.AttnValue Cert.AttnSpec

variable (m : (ℓ : Loc nD τ sig) → Buf (Elt Ideal) ℓ)

/-- The kernel's reading of the argument by coordinates is the reference's. -/
theorem X_eq (c : Dev nD) : X m c = Cert.ReferenceIdeal.RefValue.Xof (m ((c : Thread nD τ).loc main_arg0)) := rfl

/-- The attention array the kernel writes is the reference's. -/
theorem attn_bridge (c : Dev nD) :
    (dats m 0 c).arrAt 3 cfg0.N = Cert.ReferenceIdeal.Read.val_main_v16 (F := Ideal) (m ((c : Thread nD τ).loc main_arg0)) := by
  rw [final3]
  funext i
  obtain ⟨b, q, k, rfl⟩ : ∃ (b : Fin 8) (q : Fin 2048) (k : Fin 2048), i = ix3 b q k := ⟨i 0, i 1, i 2, eq_ix3 i⟩
  rw [Cert.ReferenceIdeal.RefValue.v16_at, ← X_eq]
  rfl

/-- Where the argument's entries are real, the pooled context the kernel returns is the reference's. -/
theorem ctx_bridge (c : Dev nD) (hfin : ∀ i, ∃ r : ℝ, (m ((c : Thread nD τ).loc main_arg0) : S2048x8x1024.Idx → EReal) i = (r : EReal)) :
    tailVal m c main_v3 = Cert.ReferenceIdeal.Read.val_main_v20 (F := Ideal) (m ((c : Thread nD τ).loc main_arg0)) := by
  funext i
  obtain ⟨b, h, rfl⟩ : ∃ (b : Fin 8) (h : Fin 1024), i = ix2 b h := ⟨i 0, i 1, eq_ix2 i⟩
  rw [tail_v3, final2, Cert.ReferenceIdeal.RefValue.v20_at, ← X_eq]
  exact pooledByColumns_eq_pooledByRows (X m c) (fun q b h => hfin _) b h

end Cert.Bridge

end
-- ==== Proof.FiniteInputs.lean ====
/-
  From the precondition to real entries.  The printed predicate is the conjunction over every entry of |x| < +∞; it
  holds (is all ones) exactly when no entry is +∞ or −∞, that is when every entry of the argument is a real number.
-/
import proofs.«110505_j37864431681993_2_alg».proof.Pre_finite_inputs
import proofs.«110505_j37864431681993_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx Cert.Pre_finite_inputs Cert.Pre_finite_inputs.Gen

instance : Subsingleton S_.Idx := ⟨fun a b => funext fun d => d.elim0⟩

theorem w_posInf : Ideal.ofBits .f32 0x7F800000#32 = ⊤ := by
  simp [Ideal.ofBits, Ideal.ieee]

/-- Where the predicate holds, every entry of the argument is a real number. -/
theorem real_of_pre (x : FVec Ideal S2048x8x1024 .f32) (h : Cert.Pre_finite_inputs.fn (F := Ideal) x = fun _ => 1#1)
    (i : S2048x8x1024.Idx) : ∃ r : ℝ, x i = (r : EReal) := by
  have h0 := congrFun h ValueIdx.ix0
  dsimp only [Cert.Pre_finite_inputs.fn] at h0
  have hi := Host.reduce_andi_all _ _ Facts.reducesTo_S2048x8x1024_S_d0_1_2 Facts.h_S_ ValueIdx.ix0 h0 i
  have hb : broadcastInDim S2048x8x1024 ![] Facts.bcast_S_S2048x8x1024 (constant S_ .f32 0x7F800000#32 : FVec Ideal S_ .f32) i
      = Ideal.ofBits .f32 0x7F800000#32 :=
    broadcastInDim_apply _ Facts.bcast_S_S2048x8x1024 _ i ValueIdx.ix0 (fun a => a.elim0)
  have hlt : max (x i) (-(x i)) < (⊤ : EReal) := by
    have : Ideal.cmp .olt (max (x i) (-(x i))) (Ideal.ofBits .f32 0x7F800000#32) = 1#1 := by
      rw [← hb]; exact hi
    rw [w_posInf] at this
    unfold Ideal.cmp at this
    by_contra hn
    simp [hn] at this
  have h1 : x i ≠ ⊤ := fun e => by rw [e] at hlt; simp at hlt
  have h2 : x i ≠ ⊥ := fun e => by rw [e] at hlt; simp at hlt
  exact ⟨(x i).toReal, (EReal.coe_toReal h1 h2).symm⟩

end Cert.FiniteInputs

end
-- ==== Proof.lean ====
/-
  Self-attention with Q = K = V = X, softmax over the keys, and the mean over the queries of the weighted sum, for
  X of shape [2048, 8, 1024]: a Pallas kernel on a grid of (batch, query tile) = 8 × 4 against the plain jnp form.

  The kernel never forms the [2048, 1024] context per batch: since the context is only averaged over the queries, it
  accumulates the column sums of the softmax tiles over the four query tiles of a batch, scales them by 1/2048, and
  multiplies that one row into the batch's rows.  On the extended reals with finite inputs every softmax weight is a
  real number, so the sum over queries commutes with the product and the two forms agree; the attention weights
  themselves are computed the same way on both sides (1/√1024 is exactly 1/32).

  The three frames: the kernel's run is proved in Proof/Kernel*.lean (word level) and Proof/KernelIdeal*.lean (ideal
  values) — the body run case by case, the accumulator carried from point to point, the batch-major array read through
  two windows at half the read share each —; the reference's is its generated run.  The idealization rewrote nothing.
-/
import proofs.«110505_j37864431681993_2_alg».proof.Defs
import proofs.«110505_j37864431681993_2_alg».proof.Proof.Gen.Kernel
import proofs.«110505_j37864431681993_2_alg».proof.Proof.Gen.KernelIdeal
import proofs.«110505_j37864431681993_2_alg».proof.Proof.Gen.ReferenceIdeal
import proofs.«110505_j37864431681993_2_alg».proof.Proof.Gen.Pre_finite_inputs
import proofs.«110505_j37864431681993_2_alg».proof.Proof.Gen.ReferenceIdeal.Run
import proofs.«110505_j37864431681993_2_alg».proof.Proof.Gen.ReferenceIdeal.Read
import proofs.«110505_j37864431681993_2_alg».proof.Proof.KernelLaunch
import proofs.«110505_j37864431681993_2_alg».proof.Proof.KernelIdealLaunch
import proofs.«110505_j37864431681993_2_alg».proof.Proof.Bridge
import proofs.«110505_j37864431681993_2_alg».proof.Proof.FiniteInputs
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Attn.frame m ρ

theorem frame_ki : @Cert.frame_KernelIdeal Cert.KernelIdeal.Gen.facts Cert.Pre_finite_inputs.Gen.facts :=
  fun m ρ _ => Cert.KernelIdeal.Attn.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Value.run (F := Ideal) m ρ)

/-- Both idealized programs run; the kernel's pooled context and attention weights are the reference's, entry by entry
    (the precondition is used for the pooled context only: exchanging its two sums needs real weights). -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Attn.tailVal m c Cert.KernelIdeal.main_v3,
    fun c => (Cert.KernelIdeal.Attn.dats m 0 c).arrAt 3 Cert.KernelIdeal.cfg0.N, ?_, ?_⟩
  · exact (θ_run Cert.KernelIdeal.defs _ _).mono (fun r h c =>
      ⟨(h c).2 Cert.KernelIdeal.main_v3 (by decide), (h c).1 3,
        ((h c).2 Cert.KernelIdeal.main_arg0 (by decide)).trans (Cert.KernelIdeal.Attn.tailVal_arg0 m c)⟩)
      (Cert.KernelIdeal.Attn.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v20_eq, hagree c]
      exact (Cert.Bridge.ctx_bridge m c (Cert.FiniteInputs.real_of_pre _ (hpre c))).symm
    · rw [Cert.ReferenceIdeal.Read.val_main_v16_eq, hagree c]
      exact (Cert.Bridge.attn_bridge m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
